-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x1024x1024 : Shape := ⟨3, ![1, 1024, 1024]⟩
abbrev S1024x1 : Shape := ⟨2, ![1024, 1]⟩
abbrev S1024x64 : Shape := ⟨2, ![1024, 64]⟩
abbrev S1024x1024 : Shape := ⟨2, ![1024, 1024]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i32⟩
  | .hbm, ⟨8, _⟩ => ⟨S32x2048x64, .f32⟩
  | .hbm, ⟨9, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 2, 2], ![false, false, false]⟩

def k0_cond2 (i : grid0.Coords) : BitVec 1 :=
  let arg2 : BitVec 32 := BitVec.ofNat 32 (i 2).val
  let c1_i32 : BitVec 32 := 1#32
  let v50 : BitVec 1 := Scalar.cmpi .eq arg2 c1_i32
  let v51 : BitVec 32 := Scalar.extui v50
  let c0_i32_30 : BitVec 32 := 0#32
  let v52 : BitVec 1 := Scalar.cmpi .ne v51 c0_i32_30
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x16x2048x64_S32x2048x64 : S2x16x2048x64.ShapeCasts S32x2048x64
  shapeCasts_S2x16x2048x2048_S32x2048x2048 : S2x16x2048x2048.ShapeCasts S32x2048x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x2048x64.size a
  hwx0_1 : ∀ i : grid0.Coords, EltTy.bits .f32 = 32 ∨ (Rect.block (s := S32x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x2048x2048.size a
  hwx0_3 : ∀ i : grid0.Coords, EltTy.bits .i32 = 32 ∨ (Rect.block (s := S32x2048x2048) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S32x2048x64.size a
  hwx0_4 : ∀ i : grid0.Coords, EltTy.bits .f32 = 32 ∨ (Rect.block (s := S32x2048x64) S1x1024x64.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x16x2048x2048, .i32⟩
  | .hbm, ⟨10, _⟩ => ⟨S2x16x2048x2048, .i1⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«151941_j74560632258822_2_alg».proof.Proof.LibMinMaxInf
import proofs.«151941_j74560632258822_2_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.LibAttnSwap.lean ====
/-
  Scaled dot-product attention for one query row on the extended reals: dividing once after weighing the values equals
  dividing every weight first, when all scores and values are real numbers.

  For a query row `q` of length `d` and `n` key rows the scaled score against key `c` is `(∑ j, q j · k c j) · scale`, with
  `scale` the float pattern of one eighth.  With `M` the largest score, the shifted exponentials are `e c = exp (s c − M)`.
  One arrangement weighs the value rows by the exponentials and divides the total once by their sum,
  `(∑ c, e c · v c) / ∑ c, e c`; the other divides every exponential by the sum first, `∑ c, (e c / ∑ c', e c') · v c`.
  On the extended reals the two differ at infinities.  When every score and value is a real number the largest score is one
  of the scores, hence real; every shifted exponential is the coercion of a positive real, and so is their sum `Z`;
  division by the nonzero real `Z` is multiplication by `1 / Z`; both arrangements are then coercions of real sums and the
  identity between them is distributivity in the reals.  Also here: real-valuedness is closed under products and finite
  sums, the scale is the real 1/8, and the coercion of the reals commutes with finite sums.
-/
import Idealize.ShloMosaic.PureOps.Ideal

noncomputable section

namespace Cert.Lib.AttnSwap

open Idealize.ShloMosaic
open scoped BigOperators

/-- An extended real that is a real number. -/
def IsReal (x : EReal) : Prop := ∃ r : ℝ, x = (r : EReal)

/-- The scale one eighth, as the float pattern both programs carry. -/
def scale : EReal := Ideal.ofBits .f32 0x3E000000#32

/-- The scaled score of one query row against key row `c`. -/
def score {n d : ℕ} (q : Fin d → EReal) (k : Fin n → Fin d → EReal) (c : Fin n) : EReal :=
  (∑ j : Fin d, q j * k c j) * scale

/-- The exponential of a score shifted by the largest score. -/
def expShift {n : ℕ} (s : Fin n → EReal) (c : Fin n) : EReal :=
  Ideal.exp (s c - (Finset.univ : Finset (Fin n)).sup s)

/-- Weigh by the shifted exponentials, then divide once by their sum. -/
def attnDivAfter {n : ℕ} (s v : Fin n → EReal) : EReal :=
  Ideal.div (∑ c : Fin n, expShift s c * v c) (∑ c : Fin n, expShift s c)

/-- Divide every shifted exponential by their sum, then weigh. -/
def attnDivBefore {n : ℕ} (s v : Fin n → EReal) : EReal :=
  ∑ c : Fin n, Ideal.div (expShift s c) (∑ c' : Fin n, expShift s c') * v c

/-! ### Real-valuedness is closed under the ring operations and finite sums -/

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem isReal_finset_sum {ι : Type*} (t : Finset ι) (f : ι → EReal) (hf : ∀ i, IsReal (f i)) :
    IsReal (∑ i ∈ t, f i) := by
  choose φ hφ using hf
  refine ⟨∑ i ∈ t, φ i, ?_⟩
  rw [coe_finset_sum]
  exact Finset.sum_congr rfl fun i _ => hφ i

/-! ### The scale, the dot product, the score -/

/-- The float pattern of the scale denotes one eighth: sign 0, biased exponent 124, fraction 0, that is
    `2 ^ 23 · 2 ^ (124 − 127 − 23) = 2 ^ (−3)`. -/
theorem scale_eq : scale = ((1 / 8 : ℝ) : EReal) := by
  simp [scale, Ideal.ofBits, Ideal.ieee]
  rw [← EReal.coe_mul]
  congr 1
  norm_num

theorem isReal_scale : IsReal scale := ⟨1 / 8, scale_eq⟩

theorem isReal_sum_mul {K : ℕ} (f g : Fin K → EReal) (hf : ∀ k, IsReal (f k)) (hg : ∀ k, IsReal (g k)) :
    IsReal (∑ k, f k * g k) :=
  isReal_finset_sum _ _ fun k => (hf k).mul (hg k)

theorem isReal_score {n d : ℕ} (q : Fin d → EReal) (k : Fin n → Fin d → EReal) (hq : ∀ j, IsReal (q j))
    (hk : ∀ c j, IsReal (k c j)) (c : Fin n) : IsReal (score q k c) :=
  (isReal_sum_mul q (k c) hq (hk c)).mul isReal_scale

/-! ### The two arrangements agree on real scores and values -/

theorem attn_div_swap {n : ℕ} (hn : 0 < n) (s v : Fin n → EReal) (hs : ∀ c, IsReal (s c)) (hv : ∀ c, IsReal (v c)) :
    attnDivAfter s v = attnDivBefore s v := by
  choose σ hσ using hs
  choose ν hν using hv
  -- the largest score is attained, so it is a real number
  have hne : (Finset.univ : Finset (Fin n)).Nonempty := ⟨⟨0, hn⟩, Finset.mem_univ _⟩
  obtain ⟨c₀, -, hM⟩ := Finset.exists_mem_eq_sup (Finset.univ : Finset (Fin n)) hne s
  -- every shifted exponential is the coercion of a positive real
  have he : ∀ c, expShift s c = ((Real.exp (σ c - σ c₀) : ℝ) : EReal) := by
    intro c
    rw [expShift, hM, hσ c, hσ c₀, ← EReal.coe_sub, Ideal.exp_coe]
  -- their sum is a positive real
  have hZpos : 0 < ∑ c : Fin n, Real.exp (σ c - σ c₀) :=
    Finset.sum_pos (fun c _ => Real.exp_pos _) hne
  have hZ : (∑ c : Fin n, expShift s c) = ((∑ c : Fin n, Real.exp (σ c - σ c₀) : ℝ) : EReal) := by
    rw [coe_finset_sum]
    exact Finset.sum_congr rfl fun c _ => he c
  -- both sides are coercions of real sums
  rw [attnDivAfter, attnDivBefore, hZ]
  simp only [Ideal.div_coe hZpos.ne', he, hν, ← EReal.coe_mul, ← coe_finset_sum]
  -- distributivity in the reals
  rw [Finset.sum_mul]
  congr 1
  exact Finset.sum_congr rfl fun c _ => by ring

end Cert.Lib.AttnSwap

end
-- ==== Proof.AttnSpec.lean ====
/-
  Masked scaled dot-product attention over [2, 16, 2048, 64] queries, keys and values and a [2, 16, 2048, 2048] integer
  mask, on the extended reals: the function both programs compute.

  For batch `b`, head `h` and query row `i` the score against key row `j` is the dot product of the two rows times one
  eighth, replaced by the large negative constant where the mask entry is zero.  The result at feature `d` is the sum over
  `j` of the shifted softmax of the score row at `j` times the value entry `(j, d)`.

  The online form visits the 2048 keys as two tiles of 1024.  It carries a running maximum `m`, a running sum `l` of
  shifted exponentials and a running weighted sum `acc`; a step over a tile with scores `s` and values `v` replaces them by
  `m' = max m (sup s)`, `exp (m − m') · l + ∑ exp (s k − m')` and `exp (m − m') · acc + ∑ exp (s k − m') · v k`.  It starts
  from the large negative constant, zero and zero, and ends with `acc / l`.
-/
import proofs.«151941_j74560632258822_2_alg».proof.Proof.LibSoftmaxRows
import proofs.«151941_j74560632258822_2_alg».proof.Proof.LibAttnSwap
import Idealize.ShloMosaic.Lib.ValueIdx

noncomputable section

namespace Cert.Attn

open Idealize.ShloMosaic Idealize.ShloMosaic.ValueIdx
open scoped BigOperators

abbrev SQ : Shape := ⟨4, ![2, 16, 2048, 64]⟩
abbrev SM : Shape := ⟨4, ![2, 16, 2048, 2048]⟩

/-- The large negative constant that stands in for a masked score (the float pattern of about −1e30). -/
def negBig : EReal := Ideal.ofBits .f32 0xF149F2CA#32

/-- One eighth, as the float pattern both programs carry. -/
def scale : EReal := Ideal.ofBits .f32 0x3E000000#32

/-- The masked scaled score of query row `i` against key row `j`. -/
def score (Q K : SQ.Idx → EReal) (M : SM.Idx → BitVec 32) (b : Fin 2) (h : Fin 16) (i j : Fin 2048) : EReal :=
  Scalar.select (IntOp.cmpi .eq (M (ix4 b h i j)) 0#32) negBig
    ((∑ d : Fin 64, Q (ix4 b h i d) * K (ix4 b h j d)) * scale)

/-- Softmax attention: each score row's shifted softmax weighs the value rows. -/
def attn (Q K V : SQ.Idx → EReal) (M : SM.Idx → BitVec 32) : SQ.Idx → EReal := fun idx =>
  ∑ j : Fin 2048, Cert.Lib.SoftmaxRows.softmaxRow (fun j' => score Q K M (idx 0) (idx 1) (idx 2) j') j
    * V (ix4 (idx 0) (idx 1) j (idx 3))

/-- Key `k` of tile `tl` is key `1024 · tl + k`. -/
def tileIdx (tl : Fin 2) (k : Fin 1024) : Fin 2048 := ⟨tl.val * 1024 + k.val, by have := tl.isLt; have := k.isLt; omega⟩

/-- One step of the online form over a tile. -/
def step (st : EReal × EReal × EReal) (s v : Fin 1024 → EReal) : EReal × EReal × EReal :=
  (max st.1 ((Finset.univ : Finset (Fin 1024)).sup s),
   Ideal.exp (st.1 - max st.1 ((Finset.univ : Finset (Fin 1024)).sup s)) * st.2.1
     + ∑ k : Fin 1024, Ideal.exp (s k - max st.1 ((Finset.univ : Finset (Fin 1024)).sup s)),
   Ideal.exp (st.1 - max st.1 ((Finset.univ : Finset (Fin 1024)).sup s)) * st.2.2
     + ∑ k : Fin 1024, Ideal.exp (s k - max st.1 ((Finset.univ : Finset (Fin 1024)).sup s)) * v k)

/-- The state after the first tile. -/
def after1 (s v : Fin 2048 → EReal) : EReal × EReal × EReal :=
  step (negBig, 0, 0) (fun k => s (tileIdx 0 k)) (fun k => v (tileIdx 0 k))

/-- The state after the second tile. -/
def after2 (s v : Fin 2048 → EReal) : EReal × EReal × EReal :=
  step (after1 s v) (fun k => s (tileIdx 1 k)) (fun k => v (tileIdx 1 k))

/-- The online form's result: the weighted sum over the sum of the weights. -/
def online (s v : Fin 2048 → EReal) : EReal :=
  Ideal.div (after2 s v).2.2 (after2 s v).2.1

end Cert.Attn

end
-- ==== Proof.RefSide.lean ====
/-
  The reference program read as the mathematical function: masked scaled dot-product attention on the extended reals.

  Stage by stage: the masked scaled scores; each score row's maximum, a supremum because a maximum started from −∞ is
  one; the shifted exponentials, their row sums (a sum started from zero) and the quotients, which together are the
  shifted softmax of the score row; and the contraction of the softmax weights with the value rows.  No finiteness is
  needed anywhere.
-/
import proofs.«151941_j74560632258822_2_alg».proof.Proof.Gen.ReferenceIdeal.Read
import proofs.«151941_j74560632258822_2_alg».proof.Proof.AttnSpec
import proofs.«151941_j74560632258822_2_alg».proof.Proof.LibMinMaxInf
import proofs.«151941_j74560632258822_2_alg».proof.Proof.LibSoftmaxRows

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo
open scoped BigOperators

/-- The host's maximum of an `[n, m, a, b]` array along its last axis, started from `-inf`, is at `(p, q, i)` the
    supremum of the entries `(p, q, i, k)`. -/
theorem hostMaxLast4_apply {n m a b : ℕ} {u : Shape} (x : FVec Ideal ⟨4, ![n, m, a, b]⟩ .f32) (init : FVec Ideal u .f32)
    (h' : (⟨4, ![n, m, a, b]⟩ : Shape).ReducesTo [(3 : Fin 4)] ⟨3, ![n, m, a]⟩)
    (h : (⟨4, ![n, m, a, b]⟩ : Shape).Reduces [(3 : Fin 4)] ⟨3, ![n, m, a]⟩) (hu : 0 < u.numel)
    (hinit : init (Shape.Idx.first hu) = Ideal.ofBits .f32 0xFF800000#32) (p : Fin n) (q : Fin m) (i : Fin a) :
    Host.reduce (FloatOps.maximumf (F := Ideal) (φ := .f32)) x init h' hu (ix3 p q i)
      = (Finset.univ : Finset (Fin b)).sup fun k => x (ix4 p q i k) := by
  refine (Cert.Lib.MinMaxInf.hostReduce_maximumf_single x init h' h hu (ix3 p q i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl
    | ⟨3, _⟩ => rfl))

/-- The first contraction's left index at `(b, h, r, j)` and `k` is `(b, h, r, k)`. -/
theorem lidx_v0_ix4 (b : Fin 2) (h : Fin 16) (r j : Fin 2048) (k : Fin 64) :
    lidx_main_v0 (ix4 b h r j) k = ix4 b h r k := by
  funext a
  match a with
  | ⟨0, _⟩ => rfl
  | ⟨1, _⟩ => rfl
  | ⟨2, _⟩ => rfl
  | ⟨3, _⟩ => rfl

/-- The first contraction's right index at `(b, h, r, j)` and `k` is `(b, h, j, k)`. -/
theorem ridx_v0_ix4 (b : Fin 2) (h : Fin 16) (r j : Fin 2048) (k : Fin 64) :
    ridx_main_v0 (ix4 b h r j) k = ix4 b h j k := by
  funext a
  match a with
  | ⟨0, _⟩ => rfl
  | ⟨1, _⟩ => rfl
  | ⟨2, _⟩ => rfl
  | ⟨3, _⟩ => rfl

/-- The masked score stage at `(b, h, r, j)` is the masked scaled score of query row `r` against key row `j`. -/
theorem v5_ix4 (x0 x1 : (⟨S2x16x2048x64, .f32⟩ : BufTy).Contents (Elt Ideal))
    (x3 : (⟨S2x16x2048x2048, .i32⟩ : BufTy).Contents (Elt Ideal)) (b : Fin 2) (h : Fin 16) (r j : Fin 2048) :
    val_main_v5 (F := Ideal) x0 x1 x3 (ix4 b h r j) = Cert.Attn.score x0 x1 x3 b h r j := by
  rw [val_main_v5_apply, val_main_v4_apply, val_main_v3_apply, val_main_c_apply, val_main_call0_v1_apply,
    val_main_call0_v0_apply, val_main_cst_0_apply, val_main_v2_apply, val_main_v0_apply, val_main_v1_apply,
    val_main_cst_apply]
  unfold Cert.Attn.score Cert.Attn.negBig Cert.Attn.scale
  simp only [lidx_v0_ix4, ridx_v0_ix4]
  rfl

/-- The shape of the score array reduces along its last axis to the shape of the row maxima. -/
theorem reduces_d3 : S2x16x2048x2048.Reduces [3] S2x16x2048 := by decide

/-- The row-maximum stage at `(b, h, r)` is the supremum of the score row. -/
theorem v8_ix3 (x0 x1 : (⟨S2x16x2048x64, .f32⟩ : BufTy).Contents (Elt Ideal))
    (x3 : (⟨S2x16x2048x2048, .i32⟩ : BufTy).Contents (Elt Ideal)) (b : Fin 2) (h : Fin 16) (r : Fin 2048) :
    val_main_v8 (F := Ideal) x0 x1 x3 (ix3 b h r)
      = (Finset.univ : Finset (Fin 2048)).sup fun j => Cert.Attn.score x0 x1 x3 b h r j := by
  have hmax : val_main_v6 (F := Ideal) x0 x1 x3 (ix3 b h r)
      = (Finset.univ : Finset (Fin 2048)).sup fun j => val_main_v5 (F := Ideal) x0 x1 x3 (ix4 b h r j) :=
    hostMaxLast4_apply (n := 2) (m := 16) (a := 2048) (b := 2048) (val_main_v5 (F := Ideal) x0 x1 x3)
      (val_main_cst_1 (F := Ideal)) reducesTo_S2x16x2048x2048_S2x16x2048_d3 reduces_d3 h_S_ rfl b h r
  rw [val_main_v8_apply, val_main_v7_apply, val_main_cst_2_apply, hmax]
  show max (Ideal.ofBits .f32 0xFF800000#32) _ = _
  rw [Cert.Lib.MinMaxInf.ofBits_negInf_f32, max_eq_right bot_le]
  exact Finset.sup_congr rfl fun j _ => v5_ix4 x0 x1 x3 b h r j

/-- The spread row maximum at `(b, h, r, j)` is the row maximum at `(b, h, r)`. -/
theorem idx_v9_v10_ix4 (b : Fin 2) (h : Fin 16) (r j : Fin 2048) :
    idx_main_v9 (idx_main_v10 (ix4 b h r j)) = ix3 b h r := by
  funext a
  match a with
  | ⟨0, _⟩ => rfl
  | ⟨1, _⟩ => rfl
  | ⟨2, _⟩ => rfl

/-- The spread row sum at `(b, h, r, j)` is the row sum at `(b, h, r)`. -/
theorem idx_v14_v15_ix4 (b : Fin 2) (h : Fin 16) (r j : Fin 2048) :
    idx_main_v14 (idx_main_v15 (ix4 b h r j)) = ix3 b h r := by
  funext a
  match a with
  | ⟨0, _⟩ => rfl
  | ⟨1, _⟩ => rfl
  | ⟨2, _⟩ => rfl

/-- The row sum's operand index at `(b, h, r)` and `k` is `(b, h, r, k)`. -/
theorem idx_v13_ix3 (b : Fin 2) (h : Fin 16) (r k : Fin 2048) :
    idx_main_v13 (ix3 b h r) k = ix4 b h r k := by
  funext a
  match a with
  | ⟨0, _⟩ => rfl
  | ⟨1, _⟩ => rfl
  | ⟨2, _⟩ => rfl
  | ⟨3, _⟩ => rfl

/-- The shifted exponential stage at `(b, h, r, j)`. -/
theorem v12_ix4 (x0 x1 : (⟨S2x16x2048x64, .f32⟩ : BufTy).Contents (Elt Ideal))
    (x3 : (⟨S2x16x2048x2048, .i32⟩ : BufTy).Contents (Elt Ideal)) (b : Fin 2) (h : Fin 16) (r j : Fin 2048) :
    val_main_v12 (F := Ideal) x0 x1 x3 (ix4 b h r j)
      = Ideal.exp (Cert.Attn.score x0 x1 x3 b h r j
          - (Finset.univ : Finset (Fin 2048)).sup fun j' => Cert.Attn.score x0 x1 x3 b h r j') := by
  rw [val_main_v12_apply, val_main_v11_apply, val_main_v10_apply, val_main_v9_apply, idx_v9_v10_ix4, v8_ix3, v5_ix4]
  rfl

/-- The row-sum stage at `(b, h, r)`: the sum of the row's shifted exponentials. -/
theorem v13_ix3 (x0 x1 : (⟨S2x16x2048x64, .f32⟩ : BufTy).Contents (Elt Ideal))
    (x3 : (⟨S2x16x2048x2048, .i32⟩ : BufTy).Contents (Elt Ideal)) (b : Fin 2) (h : Fin 16) (r : Fin 2048) :
    val_main_v13 (F := Ideal) x0 x1 x3 (ix3 b h r)
      = ∑ k : Fin 2048, Ideal.exp (Cert.Attn.score x0 x1 x3 b h r k
          - (Finset.univ : Finset (Fin 2048)).sup fun j' => Cert.Attn.score x0 x1 x3 b h r j') := by
  rw [val_main_v13_apply, val_main_cst_3_apply]
  show Ideal.ofBits .f32 0x00000000#32 + _ = _
  rw [Ideal.ofBits_zero_f32, zero_add]
  exact Finset.sum_congr rfl fun k _ => by rw [idx_v13_ix3, v12_ix4]

/-- The quotient stage at `(b, h, r, j)` is the shifted softmax of the score row at `j`. -/
theorem v16_ix4 (x0 x1 : (⟨S2x16x2048x64, .f32⟩ : BufTy).Contents (Elt Ideal))
    (x3 : (⟨S2x16x2048x2048, .i32⟩ : BufTy).Contents (Elt Ideal)) (b : Fin 2) (h : Fin 16) (r j : Fin 2048) :
    val_main_v16 (F := Ideal) x0 x1 x3 (ix4 b h r j)
      = Cert.Lib.SoftmaxRows.softmaxRow (fun j' => Cert.Attn.score x0 x1 x3 b h r j') j := by
  rw [val_main_v16_apply, val_main_v15_apply, val_main_v14_apply, idx_v14_v15_ix4, v13_ix3, v12_ix4]
  rfl

/-- The last contraction's left index at `(b, h, r, d)` and `k` is `(b, h, r, k)`. -/
theorem lidx_v17_ix4 (b : Fin 2) (h : Fin 16) (r : Fin 2048) (d : Fin 64) (k : Fin 2048) :
    lidx_main_v17 (ix4 b h r d) k = ix4 b h r k := by
  funext a
  match a with
  | ⟨0, _⟩ => rfl
  | ⟨1, _⟩ => rfl
  | ⟨2, _⟩ => rfl
  | ⟨3, _⟩ => rfl

/-- The last contraction's right index at `(b, h, r, d)` and `k` is `(b, h, k, d)`. -/
theorem ridx_v17_ix4 (b : Fin 2) (h : Fin 16) (r : Fin 2048) (d : Fin 64) (k : Fin 2048) :
    ridx_main_v17 (ix4 b h r d) k = ix4 b h k d := by
  funext a
  match a with
  | ⟨0, _⟩ => rfl
  | ⟨1, _⟩ => rfl
  | ⟨2, _⟩ => rfl
  | ⟨3, _⟩ => rfl

/-- The reference program's result is masked scaled dot-product attention. -/
theorem ref_eq (x0 x1 x2 : (⟨Cert.ReferenceIdeal.S2x16x2048x64, .f32⟩ : BufTy).Contents (Elt Ideal))
    (x3 : (⟨Cert.ReferenceIdeal.S2x16x2048x2048, .i32⟩ : BufTy).Contents (Elt Ideal)) :
    Cert.ReferenceIdeal.Read.val_main_v17 (F := Ideal) x0 x1 x2 x3 = Cert.Attn.attn x0 x1 x2 x3 := by
  funext i
  obtain ⟨b, h, r, d, rfl⟩ : ∃ b h r d, i = ix4 b h r d := ⟨i 0, i 1, i 2, i 3, eq_ix4 i⟩
  rw [val_main_v17_apply]
  unfold Cert.Attn.attn
  exact Finset.sum_congr rfl fun k _ => by rw [lidx_v17_ix4, ridx_v17_ix4, v16_ix4]

end Cert.ReferenceIdeal.RefValue

end
-- ==== Proof.Finite.lean ====
/-
  From the precondition "every entry of the three float inputs has absolute value below +inf" to "every entry is a real
  number".

  The precondition is a conjunction of three reductions by `and` over all axes of the comparisons `|x| < +inf`.  A
  conjunction that is 1 has both parts 1; a reduction by `and` over all axes that is 1 had a 1 at every entry; and on the
  extended reals `max x (−x) < ⊤` fails at both infinities, so the entry is a real number.
-/
import proofs.«151941_j74560632258822_2_alg».proof.Defs
import proofs.«151941_j74560632258822_2_alg».proof.Proof.LibAttnSwap
import Idealize.ShloMosaic.Lib.ReduceAll
import Idealize.ShloMosaic.Lib.ValueIdx

noncomputable section

namespace Cert.Finite

open Idealize.ShloMosaic
open Cert.Lib.AttnSwap (IsReal)
open Cert.Pre_finite_inputs (S2x16x2048x64 S2x16x2048x2048 S_)

instance : Subsingleton S_.Idx := ⟨fun a b => funext fun d => d.elim0⟩

/-- An extended real whose absolute value is below the float pattern of +inf is a real number. -/
theorem isReal_of_abs_lt (x : EReal)
    (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

/-- One `all (|x| < +inf)` that is 1 makes every entry of `x` a real number. -/
theorem all_real [Cert.Pre_finite_inputs.Facts] (x : FVec Ideal S2x16x2048x64 .f32)
    (h : Host.reduce IntOp.andi
        (cmpf .olt (Host.absf x)
          (broadcastInDim S2x16x2048x64 ![] Cert.Pre_finite_inputs.Facts.bcast_S_S2x16x2048x64
            (constant (F := Ideal) S_ .f32 0x7F800000#32)))
        (constantI S_ 1 1#1) Cert.Pre_finite_inputs.Facts.reducesTo_S2x16x2048x64_S_d0_1_2_3
        Cert.Pre_finite_inputs.Facts.h_S_ ValueIdx.ix0 = 1#1) (i : S2x16x2048x64.Idx) : IsReal (x i) :=
  isReal_of_abs_lt (x i) (Host.reduce_andi_all _ _ _ _ _ h i)

theorem real_of_pre [Cert.Pre_finite_inputs.Facts] (x0 x1 x2 : FVec Ideal S2x16x2048x64 .f32)
    (x3 : IVec S2x16x2048x2048 32)
    (h : Cert.Pre_finite_inputs.fn (F := Ideal) x0 x1 x2 x3 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨all_real x0 h0', all_real x1 h1, all_real x2 h2⟩

end Cert.Finite

end
-- ==== Proof.KPieces.lean ====
import proofs.«151941_j74560632258822_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the kernel body leaves in the three carried buffers (running maximum, running sum,
    running weighted sum) and in the output block, as the body's pure arithmetic applied to the blocks it loaded:
    the first tile starts from the initial constants, the second from what the first left. -/
namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the running maximum becomes the maximum of the initial constant and the tile's row maxima. -/
theorem sA0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 x1 x2 : Vec F S1x1024x64 .f32) (x3 : Vec F S1x1024x1024 .i32) :
    sout0_A_0 c i arg3 harg3 arg4 harg4 arg5 harg5 arg6 harg6 arg7 harg7 arg8 harg8 arg9 harg9 arg10 harg10 hc0 hc1 x0 x1 x2 x3 = k0_pay3 (k0_pay10 x0 x1 x3 k0_pay5) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz2]
  simp only [View.readCov_unit_zero (S := S1024x1) _ hz2, View.readCov_unit_zero (S := S1024x64) _ hz2, View.readAt_eq_ld, harg3.read_unread, harg4.read_unread, harg5.read_unread, harg6.read_unread, View.ld_unit_zero (S := S1x1024x64) hz3, View.ld_unit_zero (S := S1x1024x1024) hz3]

/-- First tile: the running sum of shifted exponentials. -/
theorem sA1 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 x1 x2 : Vec F S1x1024x64 .f32) (x3 : Vec F S1x1024x1024 .i32) :
    sout0_A_1 c i arg3 harg3 arg4 harg4 arg5 harg5 arg6 harg6 arg7 harg7 arg8 harg8 arg9 harg9 arg10 harg10 hc0 hc1 x0 x1 x2 x3 = k0_pay1 (k0_pay12 x0 x1 x3 k0_pay5) (k0_pay13 x0 x1 x3 k0_pay5 k0_pay6) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz2]
  simp only [View.readCov_unit_zero (S := S1024x1) _ hz2, View.readCov_unit_zero (S := S1024x64) _ hz2, View.readAt_eq_ld, harg3.read_unread, harg4.read_unread, harg5.read_unread, harg6.read_unread, View.ld_unit_zero (S := S1x1024x64) hz3, View.ld_unit_zero (S := S1x1024x1024) hz3]

/-- First tile: the running weighted sum of value rows. -/
theorem sA2 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 x1 x2 : Vec F S1x1024x64 .f32) (x3 : Vec F S1x1024x1024 .i32) :
    sout0_A_2 c i arg3 harg3 arg4 harg4 arg5 harg5 arg6 harg6 arg7 harg7 arg8 harg8 arg9 harg9 arg10 harg10 hc0 hc1 x0 x1 x2 x3 = k0_pay2 (k0_pay8 x2) (k0_pay11 x0 x1 x3 k0_pay5) (k0_pay12 x0 x1 x3 k0_pay5) k0_pay7 := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x64) hz2]
  simp only [View.readCov_unit_zero (S := S1024x1) _ hz2, View.readCov_unit_zero (S := S1024x64) _ hz2, View.readAt_eq_ld, harg3.read_unread, harg4.read_unread, harg5.read_unread, harg6.read_unread, View.ld_unit_zero (S := S1x1024x64) hz3, View.ld_unit_zero (S := S1x1024x1024) hz3]

/-- Second tile: the running maximum, from the one the first tile left. -/
theorem sB0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 x1 x2 : Vec F S1x1024x64 .f32) (x3 : Vec F S1x1024x1024 .i32) (xs0 xs1 : Vec F S1024x1 .f32) (xs2 : Vec F S1024x64 .f32) :
    sout0_B_0 c i arg3 harg3 arg4 harg4 arg5 harg5 arg6 harg6 arg7 harg7 arg8 harg8 arg9 harg9 arg10 harg10 hc0 hc1 x0 x1 x2 x3 xs0 xs1 xs2 = k0_pay3 (k0_pay10 x0 x1 x3 xs0) := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg8.read_unread, harg9.read_unread, harg10.read_unread, View.ld_unit_zero (S := S1x1024x64) hz3, View.ld_unit_zero (S := S1x1024x1024) hz3, View.ld_unit_zero (S := S1024x1) hz2, View.ld_unit_zero (S := S1024x64) hz2]

/-- Second tile: the running sum. -/
theorem sB1 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 x1 x2 : Vec F S1x1024x64 .f32) (x3 : Vec F S1x1024x1024 .i32) (xs0 xs1 : Vec F S1024x1 .f32) (xs2 : Vec F S1024x64 .f32) :
    sout0_B_1 c i arg3 harg3 arg4 harg4 arg5 harg5 arg6 harg6 arg7 harg7 arg8 harg8 arg9 harg9 arg10 harg10 hc0 hc1 x0 x1 x2 x3 xs0 xs1 xs2 = k0_pay1 (k0_pay12 x0 x1 x3 xs0) (k0_pay13 x0 x1 x3 xs0 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg8.read_unread, harg9.read_unread, harg10.read_unread, View.ld_unit_zero (S := S1x1024x64) hz3, View.ld_unit_zero (S := S1x1024x1024) hz3, View.ld_unit_zero (S := S1024x1) hz2, View.ld_unit_zero (S := S1024x64) hz2]

/-- Second tile: the running weighted sum. -/
theorem sB2 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 x1 x2 : Vec F S1x1024x64 .f32) (x3 : Vec F S1x1024x1024 .i32) (xs0 xs1 : Vec F S1024x1 .f32) (xs2 : Vec F S1024x64 .f32) :
    sout0_B_2 c i arg3 harg3 arg4 harg4 arg5 harg5 arg6 harg6 arg7 harg7 arg8 harg8 arg9 harg9 arg10 harg10 hc0 hc1 x0 x1 x2 x3 xs0 xs1 xs2 = k0_pay2 (k0_pay8 x2) (k0_pay11 x0 x1 x3 xs0) (k0_pay12 x0 x1 x3 xs0) xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg8.read_unread, harg9.read_unread, harg10.read_unread, View.ld_unit_zero (S := S1x1024x64) hz3, View.ld_unit_zero (S := S1x1024x1024) hz3, View.ld_unit_zero (S := S1024x1) hz2, View.ld_unit_zero (S := S1024x64) hz2]

/-- Second tile: the output block is the final weighted sum divided by the final sum, row by row. -/
theorem oB4 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .i32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 x1 x2 : Vec F S1x1024x64 .f32) (x3 : Vec F S1x1024x1024 .i32) (xs0 xs1 : Vec F S1024x1 .f32) (xs2 : Vec F S1024x64 .f32) :
    out0_B_4 c i arg3 harg3 arg4 harg4 arg5 harg5 arg6 harg6 arg7 harg7 arg8 harg8 arg9 harg9 arg10 harg10 hc0 hc1 x0 x1 x2 x3 xs0 xs1 xs2
      = k0_pay4 (k0_pay2 (k0_pay8 x2) (k0_pay11 x0 x1 x3 xs0) (k0_pay12 x0 x1 x3 xs0) xs2)
          (k0_pay1 (k0_pay12 x0 x1 x3 xs0) (k0_pay13 x0 x1 x3 xs0 xs1)) := by
  unfold out0_B_4
  rw [View.read_writes_eq_canon _ _ _ (cover0_B_4 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz3]
  simp only [View.readCov_unit_zero (S := S1024x1) _ hz2, View.readCov_unit_zero (S := S1024x64) _ hz2, View.readAt_eq_ld, harg3.read_unread, harg4.read_unread, harg5.read_unread, harg6.read_unread, harg8.read_unread, harg9.read_unread, harg10.read_unread, View.ld_unit_zero (S := S1x1024x64) hz3, View.ld_unit_zero (S := S1x1024x1024) hz3, View.ld_unit_zero (S := S1024x1) hz2, View.ld_unit_zero (S := S1024x64) hz2]

end Cert.KernelIdeal.KVal
end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.KPay.lean ====
import proofs.«151941_j74560632258822_2_alg».proof.Proof.Gen.KernelIdeal.Skeleton
import proofs.«151941_j74560632258822_2_alg».proof.Proof.AttnSpec
import proofs.«151941_j74560632258822_2_alg».proof.Proof.LibDenseNT
import proofs.«151941_j74560632258822_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

/-! The kernel body's arithmetic on the extended reals, read entry by entry.  For one tile of 1024 keys with query block
    `q`, key block `k`, value block `v` and mask block `mk`, row `r` of the masked score tile is `tsc q k mk r`; the body
    updates the running maximum, sum and weighted sum of row `r` (at feature `d`) exactly by one online step over that
    score row and column `d` of the value block. -/
namespace Cert.KernelIdeal.KVal

open Cert.KernelIdeal Cert.KernelIdeal.Gen

/-- Row `r` of a tile's masked scores: the query row scaled by one eighth against each key row, the large negative
    constant where the mask is zero. -/
def tsc (q k : Vec Ideal S1x1024x64 .f32) (mk : Vec Ideal S1x1024x1024 .i32) (r : Fin 1024) : Fin 1024 → EReal :=
  fun j => Scalar.select (IntOp.cmpi .eq (mk (ix3 (0 : Fin 1) r j)) 0#32) Cert.Attn.negBig
    (∑ d : Fin 64, (q (ix3 (0 : Fin 1) r d) * Cert.Attn.scale) * k (ix3 (0 : Fin 1) j d))

/-! ### The body's operations on arbitrary operands, read at an entry -/

theorem exp_at {s : Shape} {φ : FTy} (a : FVec Ideal s φ) (i : s.Idx) : exp a i = Ideal.exp (a i) := rfl

/-- The row maxima kept as a column and joined with a running maximum. -/
theorem rowmax_keep (S : FVec Ideal S1024x1024 .f32) (mp : Vec Ideal S1024x1 .f32) (r : Fin 1024) (u : Fin 1) :
    maximumf mp (shapeCast S1024x1 (multiReduction .maximumf [1] S1024 S 0xFF800000#32 reduces_S1024x1024_S1024 (.inl rfl) rfl)
      shapeCasts_S1024_S1024x1) (ix2 r u)
      = max (mp (ix2 r u)) ((Finset.univ : Finset (Fin 1024)).sup fun j => S (ix2 r j)) := by
  rw [maximumf_apply, Cert.Lib.Keepdims.shapeCast_a_a1_apply]
  exact congrArg (max (mp (ix2 r u))) (Cert.Lib.SoftmaxRows.rowMax_apply S reduces_S1024x1024_S1024 (.inl rfl) rfl r)

/-- The exponentials of a score tile shifted by a column spread over the columns. -/
theorem shifted_exp (S : FVec Ideal S1024x1024 .f32) (mn : FVec Ideal S1024x1 .f32) (r j : Fin 1024) :
    exp (subf S (broadcastTo S1024x1024 mn broadcasts_S1024x1_S1024x1024)) (ix2 r j)
      = Ideal.exp (S (ix2 r j) - mn (ix2 r (0 : Fin 1))) := by
  rw [exp_at, subf_apply, Cert.Lib.Keepdims.broadcastTo_a1_ab_apply]

/-- A column plus the row sums kept as a column. -/
theorem rowsum_keep (p : FVec Ideal S1024x1024 .f32) (al : FVec Ideal S1024x1 .f32) (r : Fin 1024) (u : Fin 1) :
    shapeCast S1024x1 (addf al (shapeCast S1024x1
      (multiReduction .add [1] S1024 p 0x00000000#32 reduces_S1024x1024_S1024 (.inl rfl) rfl) shapeCasts_S1024_S1024x1))
      shapeCasts_S1024x1_S1024x1 (ix2 r u)
      = al (ix2 r u) + ∑ j : Fin 1024, p (ix2 r j) := by
  rw [shapeCast_self, addf_apply, Cert.Lib.Keepdims.shapeCast_a_a1_apply]
  exact congrArg (al (ix2 r u) + ·) (Cert.Lib.Keepdims.rowSum_apply p 0x00000000#32 reduces_S1024x1024_S1024 (.inl rfl) rfl r)

/-- A column spread over the features times an accumulator, plus weights against a value block. -/
theorem weighted_keep (vb : FVec Ideal S1024x64 .bf16) (a : FVec Ideal S1024x1 .f32) (p : FVec Ideal S1024x1024 .f32)
    (accp : Vec Ideal S1024x64 .f32) (r : Fin 1024) (d : Fin 64) :
    shapeCast S1024x64 (addf (mulf (broadcastTo S1024x64 a broadcasts_S1024x1_S1024x64) accp)
      (matmul dot_S1024x1024_S1024x64_S1024x64_1_0_0_1_n_n none (truncf .bf16 p bitsLt_bf16_f32) vb
        (constant S1024x64 .f32 0x00000000#32))) shapeCasts_S1024x64_S1024x64 (ix2 r d)
      = a (ix2 r (0 : Fin 1)) * accp (ix2 r d) + ∑ j : Fin 1024, p (ix2 r j) * vb (ix2 j d) := by
  rw [shapeCast_self, addf_apply, mulf_apply, Cert.Lib.Keepdims.broadcastTo_a1_ab_apply,
    Cert.Lib.Dense.matmul_zero_at dot_S1024x1024_S1024x64_S1024x64_1_0_0_1_n_n rfl rfl rfl rfl rfl rfl _ _ r d]
  rfl

/-- The accumulator divided by a column spread over the features, as a block with a leading unit axis. -/
theorem div_keep (acc : FVec Ideal S1024x64 .f32) (l : FVec Ideal S1024x1 .f32) (u : Fin 1) (r : Fin 1024) (d : Fin 64) :
    shapeCast S1x1024x64 (divf acc (broadcastTo S1024x64 l broadcasts_S1024x1_S1024x64)) shapeCasts_S1024x64_S1x1024x64
      (ix3 u r d) = Ideal.div (acc (ix2 r d)) (l (ix2 r (0 : Fin 1))) := by
  rw [shapeCast_ab_1ab_apply, divf_apply, Cert.Lib.Keepdims.broadcastTo_a1_ab_apply]

/-! ### The body's payloads at an entry -/

theorem pay9_at (q k : Vec Ideal S1x1024x64 .f32) (mk : Vec Ideal S1x1024x1024 .i32) (r j : Fin 1024) :
    k0_pay9 (F := Ideal) q k mk (ix2 r j) = tsc q k mk r j := by
  unfold k0_pay9 tsc
  show Scalar.select (IntOp.cmpi .eq (shapeCast S1024x1024 mk shapeCasts_S1x1024x1024_S1024x1024 (ix2 r j)) 0#32)
    (Ideal.ofBits .f32 0xF149F2CA#32) (matmul dot_S1024x64_S1024x64_S1024x1024_1_1_0_0_n_n none _ _ _ (ix2 r j)) = _
  rw [shapeCast_1ab_ab_apply,
    Cert.Lib.DenseNT.matmul_zero_at dot_S1024x64_S1024x64_S1024x1024_1_1_0_0_n_n rfl rfl rfl rfl rfl rfl none _ _ r j]
  unfold Cert.Lib.DenseNT.rowRowDot
  refine congrArg _ (Finset.sum_congr rfl fun d _ => ?_)
  show (shapeCast S1024x64 q shapeCasts_S1x1024x64_S1024x64 (ix2 r d) * Ideal.ofBits .f32 0x3E000000#32)
    * shapeCast S1024x64 k shapeCasts_S1x1024x64_S1024x64 (ix2 j d) = _
  rw [shapeCast_1ab_ab_apply, shapeCast_1ab_ab_apply]
  rfl

theorem pay10_at (q k : Vec Ideal S1x1024x64 .f32) (mk : Vec Ideal S1x1024x1024 .i32) (mp : Vec Ideal S1024x1 .f32)
    (r : Fin 1024) (u : Fin 1) :
    k0_pay10 (F := Ideal) q k mk mp (ix2 r u)
      = max (mp (ix2 r u)) ((Finset.univ : Finset (Fin 1024)).sup (tsc q k mk r)) :=
  (rowmax_keep (k0_pay9 (F := Ideal) q k mk) mp r u).trans
    (congrArg (max (mp (ix2 r u))) (Finset.sup_congr rfl fun j _ => pay9_at q k mk r j))

theorem pay11_at (q k : Vec Ideal S1x1024x64 .f32) (mk : Vec Ideal S1x1024x1024 .i32) (mp : Vec Ideal S1024x1 .f32)
    (r : Fin 1024) (u : Fin 1) :
    k0_pay11 (F := Ideal) q k mk mp (ix2 r u)
      = Ideal.exp (mp (ix2 r u) - max (mp (ix2 r u)) ((Finset.univ : Finset (Fin 1024)).sup (tsc q k mk r))) :=
  ((exp_at (subf mp (k0_pay10 (F := Ideal) q k mk mp)) (ix2 r u)).trans
    (congrArg Ideal.exp (subf_apply mp (k0_pay10 (F := Ideal) q k mk mp) (ix2 r u)))).trans
    (congrArg (fun x => Ideal.exp (mp (ix2 r u) - x)) (pay10_at q k mk mp r u))

theorem pay12_at (q k : Vec Ideal S1x1024x64 .f32) (mk : Vec Ideal S1x1024x1024 .i32) (mp : Vec Ideal S1024x1 .f32)
    (r j : Fin 1024) :
    k0_pay12 (F := Ideal) q k mk mp (ix2 r j)
      = Ideal.exp (tsc q k mk r j
          - max (mp (ix2 r (0 : Fin 1))) ((Finset.univ : Finset (Fin 1024)).sup (tsc q k mk r))) :=
  (shifted_exp (k0_pay9 (F := Ideal) q k mk) (k0_pay10 (F := Ideal) q k mk mp) r j).trans
    (by rw [pay9_at, pay10_at])

theorem pay13_at (q k : Vec Ideal S1x1024x64 .f32) (mk : Vec Ideal S1x1024x1024 .i32) (mp lp : Vec Ideal S1024x1 .f32)
    (r : Fin 1024) (u : Fin 1) :
    k0_pay13 (F := Ideal) q k mk mp lp (ix2 r u)
      = Ideal.exp (mp (ix2 r u) - max (mp (ix2 r u)) ((Finset.univ : Finset (Fin 1024)).sup (tsc q k mk r)))
          * lp (ix2 r u) :=
  (mulf_apply (k0_pay11 (F := Ideal) q k mk mp) lp (ix2 r u)).trans
    (congrArg (· * lp (ix2 r u)) (pay11_at q k mk mp r u))

theorem pay1_at (p : FVec Ideal S1024x1024 .f32) (al : FVec Ideal S1024x1 .f32) (r : Fin 1024) (u : Fin 1) :
    k0_pay1 (F := Ideal) p al (ix2 r u) = al (ix2 r u) + ∑ j : Fin 1024, p (ix2 r j) :=
  rowsum_keep p al r u

theorem pay8_at (v : Vec Ideal S1x1024x64 .f32) (j : Fin 1024) (d : Fin 64) :
    k0_pay8 (F := Ideal) v (ix2 j d) = v (ix3 (0 : Fin 1) j d) :=
  (truncf_apply (shapeCast S1024x64 v shapeCasts_S1x1024x64_S1024x64) bitsLt_bf16_f32 (ix2 j d)).trans
    (shapeCast_1ab_ab_apply v shapeCasts_S1x1024x64_S1024x64 j d)

theorem pay2_at (vb : FVec Ideal S1024x64 .bf16) (a : FVec Ideal S1024x1 .f32) (p : FVec Ideal S1024x1024 .f32)
    (accp : Vec Ideal S1024x64 .f32) (r : Fin 1024) (d : Fin 64) :
    k0_pay2 (F := Ideal) vb a p accp (ix2 r d)
      = a (ix2 r (0 : Fin 1)) * accp (ix2 r d) + ∑ j : Fin 1024, p (ix2 r j) * vb (ix2 j d) :=
  weighted_keep vb a p accp r d

theorem pay4_at (acc : Vec Ideal S1024x64 .f32) (l : Vec Ideal S1024x1 .f32) (u : Fin 1) (r : Fin 1024) (d : Fin 64) :
    k0_pay4 (F := Ideal) acc l (ix3 u r d) = Ideal.div (acc (ix2 r d)) (l (ix2 r (0 : Fin 1))) :=
  div_keep acc l u r d

theorem pay5_at (i : S1024x1.Idx) : k0_pay5 (F := Ideal) i = Cert.Attn.negBig :=
  congrFun (shapeCast_self (broadcast S1024x1 (Scalar.ofBits (F := Ideal) .f32 0xF149F2CA#32)) shapeCasts_S1024x1_S1024x1) i

theorem pay6_at (i : S1024x1.Idx) : k0_pay6 (F := Ideal) i = 0 :=
  (congrFun (shapeCast_self (broadcast S1024x1 (Scalar.ofBits (F := Ideal) .f32 0x00000000#32)) shapeCasts_S1024x1_S1024x1) i).trans
    Ideal.ofBits_zero_f32

theorem pay7_at (i : S1024x64.Idx) : k0_pay7 (F := Ideal) i = 0 :=
  (congrFun (shapeCast_self (broadcast S1024x64 (Scalar.ofBits (F := Ideal) .f32 0x00000000#32)) shapeCasts_S1024x64_S1024x64) i).trans
    Ideal.ofBits_zero_f32

theorem pay3_eq (x : FVec Ideal S1024x1 .f32) : k0_pay3 (F := Ideal) x = x :=
  shapeCast_self x shapeCasts_S1024x1_S1024x1

/-- One tile's update of row `r` (at feature `d`) is one online step over that row's scores and the value column. -/
theorem tile_step (q k v : Vec Ideal S1x1024x64 .f32) (mk : Vec Ideal S1x1024x1024 .i32) (mp lp : Vec Ideal S1024x1 .f32)
    (accp : Vec Ideal S1024x64 .f32) (r : Fin 1024) (d : Fin 64) :
    (k0_pay3 (F := Ideal) (k0_pay10 q k mk mp) (ix2 r (0 : Fin 1)),
      k0_pay1 (F := Ideal) (k0_pay12 q k mk mp) (k0_pay13 q k mk mp lp) (ix2 r (0 : Fin 1)),
      k0_pay2 (F := Ideal) (k0_pay8 v) (k0_pay11 q k mk mp) (k0_pay12 q k mk mp) accp (ix2 r d))
    = Cert.Attn.step (mp (ix2 r (0 : Fin 1)), lp (ix2 r (0 : Fin 1)), accp (ix2 r d)) (tsc q k mk r)
        (fun j => v (ix3 (0 : Fin 1) j d)) := by
  unfold Cert.Attn.step
  refine Prod.ext ?_ (Prod.ext ?_ ?_)
  · exact (congrFun (pay3_eq (k0_pay10 (F := Ideal) q k mk mp)) (ix2 r (0 : Fin 1))).trans (pay10_at q k mk mp r 0)
  · refine (pay1_at (k0_pay12 (F := Ideal) q k mk mp) (k0_pay13 (F := Ideal) q k mk mp lp) r 0).trans ?_
    rw [pay13_at]
    exact congrArg _ (Finset.sum_congr rfl fun j _ => pay12_at q k mk mp r j)
  · refine (pay2_at (k0_pay8 (F := Ideal) v) (k0_pay11 (F := Ideal) q k mk mp) (k0_pay12 (F := Ideal) q k mk mp) accp r d).trans ?_
    rw [pay11_at]
    exact congrArg _ (Finset.sum_congr rfl fun j _ => by rw [pay12_at, pay8_at])

end Cert.KernelIdeal.KVal

end
-- ==== Proof.KBlocks.lean ====
/-
  The kernel's input blocks read at an index.

  The grid has 32 · 2 · 2 points in row-major order: point `t` is batch-head `t / 4` (batch `t / 64`, head `t / 4 % 16`),
  query tile `t / 2 % 2` and key tile `t % 2`.  Before the region the host reshapes queries, keys and values from
  [2, 16, 2048, 64] to [32, 2048, 64] and the mask from [2, 16, 2048, 2048] to [32, 2048, 2048]; a reshape keeps the
  row-major position, so entry `(16 b + h, i, d)` of the reshaped array is entry `(b, h, i, d)` of the argument.  The
  query block at a point is rows `1024 · qi + r` of batch-head `bh`, the key and value blocks rows `1024 · ki + j`, the mask
  block rows `1024 · qi + r` and columns `1024 · ki + j`: a block's coordinate is its block index times the block size plus the
  coordinate inside the block.
-/
import proofs.«151941_j74560632258822_2_alg».proof.Proof.Gen.KernelIdeal.Frame
import proofs.«151941_j74560632258822_2_alg».proof.Proof.AttnSpec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KBlk

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## A grid point's coordinates -/

/-- The grid has 128 points. -/
theorem lt128 (t : Fin cfg0.N) : t.val < 128 := (show t.val < grid0.N from t.isLt).trans_eq N_0

/-- The batch of point `t`. -/
def bOf (t : Fin cfg0.N) : Fin 2 := ⟨t.val / 64, by have := lt128 t; omega⟩
/-- The head of point `t`. -/
def hOf (t : Fin cfg0.N) : Fin 16 := ⟨t.val / 4 % 16, by omega⟩
/-- The query tile of point `t`. -/
def qiOf (t : Fin cfg0.N) : Fin 2 := ⟨t.val / 2 % 2, by omega⟩
/-- The key tile of point `t`. -/
def kiOf (t : Fin cfg0.N) : Fin 2 := ⟨t.val % 2, by omega⟩

/-! ## The windows' block indices, decided once over the grid -/

/-- The query window's block index at point `t` is (batch-head, query tile, 0). -/
theorem idx0 : ∀ t : Fin cfg0.N, win0_0.index t 0 = t.val / 4 ∧ win0_0.index t 1 = t.val / 2 % 2 ∧ win0_0.index t 2 = 0 :=
  (by decide +kernel : ∀ t : Fin grid0.N, win0_0.index t 0 = t.val / 4 ∧ win0_0.index t 1 = t.val / 2 % 2 ∧ win0_0.index t 2 = 0)
/-- The key window's block index at point `t` is (batch-head, key tile, 0). -/
theorem idx1 : ∀ t : Fin cfg0.N, win0_1.index t 0 = t.val / 4 ∧ win0_1.index t 1 = t.val % 2 ∧ win0_1.index t 2 = 0 :=
  (by decide +kernel : ∀ t : Fin grid0.N, win0_1.index t 0 = t.val / 4 ∧ win0_1.index t 1 = t.val % 2 ∧ win0_1.index t 2 = 0)
/-- The value window's block index at point `t` is (batch-head, key tile, 0). -/
theorem idx2 : ∀ t : Fin cfg0.N, win0_2.index t 0 = t.val / 4 ∧ win0_2.index t 1 = t.val % 2 ∧ win0_2.index t 2 = 0 :=
  (by decide +kernel : ∀ t : Fin grid0.N, win0_2.index t 0 = t.val / 4 ∧ win0_2.index t 1 = t.val % 2 ∧ win0_2.index t 2 = 0)
/-- The mask window's block index at point `t` is (batch-head, query tile, key tile). -/
theorem idx3 : ∀ t : Fin cfg0.N, win0_3.index t 0 = t.val / 4 ∧ win0_3.index t 1 = t.val / 2 % 2 ∧ win0_3.index t 2 = t.val % 2 :=
  (by decide +kernel : ∀ t : Fin grid0.N, win0_3.index t 0 = t.val / 4 ∧ win0_3.index t 1 = t.val / 2 % 2 ∧ win0_3.index t 2 = t.val % 2)

/-! ## The arrays the region finds: the host's reshapes of the arguments -/

theorem V_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl
theorem V_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl
theorem V_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl
theorem V_v3 (c : Dev nD) : (V m c main_v3 : S32x2048x2048.Idx → BitVec 32)
    = shapeCast S32x2048x2048 (m ((c : Thread nD τ).loc main_arg3)) shapeCasts_S2x16x2048x2048_S32x2048x2048 := by
  show StableHlo.after hostOps0 (fun b => m (c, b)) (Proc.devRef .tc main_v3) = _
  after_results
  rfl

/-! ## A reshaped array read at an index -/

/-- Entry `(p, i, d)` of the [32, 2048, 64] reshape of a [2, 16, 2048, 64] array is the entry `(b, h, i, d)` with
    `p = 16 b + h`. -/
theorem reshape64_apply {α : Type} (x : S2x16x2048x64.Idx → α) (hc : S2x16x2048x64.ShapeCasts S32x2048x64)
    (j : S32x2048x64.Idx) (b : Fin 2) (h : Fin 16) (i : Fin 2048) (d : Fin 64)
    (h0 : (j 0).val = b.val * 16 + h.val) (h1 : (j 1).val = i.val) (h2 : (j 2).val = d.val) :
    shapeCast S32x2048x64 x hc j = x (ix4 b h i d) := by
  refine shapeCast_apply x hc j (ix4 b h i d) ?_
  rw [Shape.rowMajor_val_four, Shape.rowMajor_val_three]
  show ((b.val * 16 + h.val) * 2048 + i.val) * 64 + d.val = ((j 0).val * 2048 + (j 1).val) * 64 + (j 2).val
  rw [h0, h1, h2]

/-- Entry `(p, i, k)` of the [32, 2048, 2048] reshape of a [2, 16, 2048, 2048] array is the entry `(b, h, i, k)` with
    `p = 16 b + h`. -/
theorem reshape2048_apply {α : Type} (x : S2x16x2048x2048.Idx → α) (hc : S2x16x2048x2048.ShapeCasts S32x2048x2048)
    (j : S32x2048x2048.Idx) (b : Fin 2) (h : Fin 16) (i k : Fin 2048)
    (h0 : (j 0).val = b.val * 16 + h.val) (h1 : (j 1).val = i.val) (h2 : (j 2).val = k.val) :
    shapeCast S32x2048x2048 x hc j = x (ix4 b h i k) := by
  refine shapeCast_apply x hc j (ix4 b h i k) ?_
  rw [Shape.rowMajor_val_four, Shape.rowMajor_val_three]
  show ((b.val * 16 + h.val) * 2048 + i.val) * 2048 + k.val = ((j 0).val * 2048 + (j 1).val) * 2048 + (j 2).val
  rw [h0, h1, h2]

/-! ## The blocks -/

/-- The query block at point `t`, entry `(0, r, d)`: query row `1024 · qi + r` of the point's batch and head. -/
theorem iblk0_at (c : Dev nD) (t : Fin cfg0.N) (r : Fin 1024) (d : Fin 64) :
    (iblk m c 0 t : Vec Ideal S1x1024x64 .f32) (ix3 (0 : Fin 1) r d)
      = m ((c : Thread nD τ).loc main_arg0) (ix4 (bOf t) (hOf t) (Cert.Attn.tileIdx (qiOf t) r) d) := by
  obtain ⟨e0, e1, e2⟩ := idx0 t
  have ht := lt128 t
  unfold iblk
  rw [View.read_apply]
  show V m c main_v0 (((cfg0.win 0).blk t).view.emb (ix3 (0 : Fin 1) r d)) = _
  refine (congrFun (V_v0 m c) _).trans ?_
  refine reshape64_apply _ _ _ (bOf t) (hOf t) (Cert.Attn.tileIdx (qiOf t) r) d ?_ ?_ ?_
  · show win0_0.index t 0 * 1 + 1 * 0 = t.val / 64 * 16 + t.val / 4 % 16
    rw [e0]; omega
  · show win0_0.index t 1 * 1024 + 1 * r.val = t.val / 2 % 2 * 1024 + r.val
    rw [e1]; omega
  · show win0_0.index t 2 * 64 + 1 * d.val = d.val
    rw [e2]; omega

/-- The key block at point `t`, entry `(0, j, d)`: key row `1024 · ki + j` of the point's batch and head. -/
theorem iblk1_at (c : Dev nD) (t : Fin cfg0.N) (j : Fin 1024) (d : Fin 64) :
    (iblk m c 1 t : Vec Ideal S1x1024x64 .f32) (ix3 (0 : Fin 1) j d)
      = m ((c : Thread nD τ).loc main_arg1) (ix4 (bOf t) (hOf t) (Cert.Attn.tileIdx (kiOf t) j) d) := by
  obtain ⟨e0, e1, e2⟩ := idx1 t
  have ht := lt128 t
  unfold iblk
  rw [View.read_apply]
  show V m c main_v1 (((cfg0.win 1).blk t).view.emb (ix3 (0 : Fin 1) j d)) = _
  refine (congrFun (V_v1 m c) _).trans ?_
  refine reshape64_apply _ _ _ (bOf t) (hOf t) (Cert.Attn.tileIdx (kiOf t) j) d ?_ ?_ ?_
  · show win0_1.index t 0 * 1 + 1 * 0 = t.val / 64 * 16 + t.val / 4 % 16
    rw [e0]; omega
  · show win0_1.index t 1 * 1024 + 1 * j.val = t.val % 2 * 1024 + j.val
    rw [e1]; omega
  · show win0_1.index t 2 * 64 + 1 * d.val = d.val
    rw [e2]; omega

/-- The value block at point `t`, entry `(0, j, d)`: value row `1024 · ki + j` of the point's batch and head. -/
theorem iblk2_at (c : Dev nD) (t : Fin cfg0.N) (j : Fin 1024) (d : Fin 64) :
    (iblk m c 2 t : Vec Ideal S1x1024x64 .f32) (ix3 (0 : Fin 1) j d)
      = m ((c : Thread nD τ).loc main_arg2) (ix4 (bOf t) (hOf t) (Cert.Attn.tileIdx (kiOf t) j) d) := by
  obtain ⟨e0, e1, e2⟩ := idx2 t
  have ht := lt128 t
  unfold iblk
  rw [View.read_apply]
  show V m c main_v2 (((cfg0.win 2).blk t).view.emb (ix3 (0 : Fin 1) j d)) = _
  refine (congrFun (V_v2 m c) _).trans ?_
  refine reshape64_apply _ _ _ (bOf t) (hOf t) (Cert.Attn.tileIdx (kiOf t) j) d ?_ ?_ ?_
  · show win0_2.index t 0 * 1 + 1 * 0 = t.val / 64 * 16 + t.val / 4 % 16
    rw [e0]; omega
  · show win0_2.index t 1 * 1024 + 1 * j.val = t.val % 2 * 1024 + j.val
    rw [e1]; omega
  · show win0_2.index t 2 * 64 + 1 * d.val = d.val
    rw [e2]; omega

/-- The mask block at point `t`, entry `(0, r, j)`: mask row `1024 · qi + r`, column `1024 · ki + j` of the point's batch and
    head. -/
theorem iblk3_at (c : Dev nD) (t : Fin cfg0.N) (r j : Fin 1024) :
    (iblk m c 3 t : IVec S1x1024x1024 32) (ix3 (0 : Fin 1) r j)
      = m ((c : Thread nD τ).loc main_arg3)
          (ix4 (bOf t) (hOf t) (Cert.Attn.tileIdx (qiOf t) r) (Cert.Attn.tileIdx (kiOf t) j)) := by
  obtain ⟨e0, e1, e2⟩ := idx3 t
  have ht := lt128 t
  unfold iblk
  rw [View.read_apply]
  show V m c main_v3 (((cfg0.win 3).blk t).view.emb (ix3 (0 : Fin 1) r j)) = _
  refine (congrFun (V_v3 m c) _).trans ?_
  refine reshape2048_apply _ _ _ (bOf t) (hOf t) (Cert.Attn.tileIdx (qiOf t) r) (Cert.Attn.tileIdx (kiOf t) j) ?_ ?_ ?_
  · show win0_3.index t 0 * 1 + 1 * 0 = t.val / 64 * 16 + t.val / 4 % 16
    rw [e0]; omega
  · show win0_3.index t 1 * 1024 + 1 * r.val = t.val / 2 % 2 * 1024 + r.val
    rw [e1]; omega
  · show win0_3.index t 2 * 1024 + 1 * j.val = t.val % 2 * 1024 + j.val
    rw [e2]; omega

end Cert.KernelIdeal.KBlk

end
-- ==== Proof.AttnAlgebra.lean ====
/-
  The algebra of masked scaled dot-product attention on the extended reals: the constants are real numbers, the scale
  moves out of the dot product, every masked score is a real number, and the two-tile online softmax equals the one-pass
  shifted softmax when every score and value is a real number.
-/
import proofs.«151941_j74560632258822_2_alg».proof.Proof.AttnSpec

noncomputable section

namespace Cert.Attn

open Idealize.ShloMosaic Idealize.ShloMosaic.ValueIdx
open Cert.Lib.AttnSwap (IsReal)
open Cert.Lib.SoftmaxRows (softmaxRow)
open scoped BigOperators

/-! ### The constants, the dot product and the score -/

/-- The float pattern of the masking constant denotes a real number: sign 1, a finite biased exponent, so
    minus a natural number times a power of two. -/
theorem isReal_negBig : IsReal negBig := by
  simp [negBig, Ideal.ofBits, Ideal.ieee]
  refine ⟨-(13234890 * 2 ^ 76), ?_⟩
  push_cast
  rfl

theorem scale_eq : scale = ((1 / 8 : ℝ) : EReal) := Cert.Lib.AttnSwap.scale_eq

/-- Scaling every query entry before the dot product equals scaling the dot product, on real entries. -/
theorem dot_scale (q k : Fin 64 → EReal) (hq : ∀ d, IsReal (q d)) (hk : ∀ d, IsReal (k d)) :
    (∑ d : Fin 64, (q d * scale) * k d) = (∑ d : Fin 64, q d * k d) * scale := by
  choose φ hφ using hq
  choose κ hκ using hk
  simp only [scale_eq, hφ, hκ, ← EReal.coe_mul, ← Cert.Lib.AttnSwap.coe_finset_sum]
  congr 1
  rw [Finset.sum_mul]
  exact Finset.sum_congr rfl fun d _ => by ring

/-- Every masked scaled score of real queries and keys is a real number: it is either the masking constant or a
    finite sum of products of reals times the scale. -/
theorem isReal_score (Q K : SQ.Idx → EReal) (M : SM.Idx → BitVec 32) (hQ : ∀ i, IsReal (Q i)) (hK : ∀ i, IsReal (K i))
    (b : Fin 2) (h : Fin 16) (i j : Fin 2048) : IsReal (score Q K M b h i j) := by
  unfold score Scalar.select
  split
  · exact isReal_negBig
  · exact (Cert.Lib.AttnSwap.isReal_finset_sum _ _ fun d => (hQ _).mul (hK _)).mul ⟨1 / 8, scale_eq⟩

/-! ### The online form over the reals -/

/-- A sum over the 2048 keys is the sum over the first tile plus the sum over the second. -/
theorem sum_tiles (f : Fin 2048 → ℝ) :
    ∑ j : Fin 2048, f j = ∑ k : Fin 1024, f (tileIdx 0 k) + ∑ k : Fin 1024, f (tileIdx 1 k) := by
  refine (Fin.sum_univ_add (a := 1024) (b := 1024) f).trans ?_
  rfl

/-- The weighted sum after both tiles: rescaling the first tile's sum from its own maximum `m₁` to the final maximum
    `m₂` turns each `exp (σ − m₁)` into `exp (σ − m₂)`, so the total is the sum over all keys shifted by `m₂`. -/
theorem two_tiles_sum (σ ν : Fin 2048 → ℝ) (n m₁ m₂ : ℝ) :
    Real.exp (m₁ - m₂) * (Real.exp (n - m₁) * 0 + ∑ k : Fin 1024, Real.exp (σ (tileIdx 0 k) - m₁) * ν (tileIdx 0 k))
        + ∑ k : Fin 1024, Real.exp (σ (tileIdx 1 k) - m₂) * ν (tileIdx 1 k)
      = ∑ j : Fin 2048, Real.exp (σ j - m₂) * ν j := by
  rw [sum_tiles, mul_zero, zero_add, Finset.mul_sum]
  congr 1
  refine Finset.sum_congr rfl fun k _ => ?_
  rw [← mul_assoc, ← Real.exp_add]
  congr 2
  ring

/-- The same for the sum of the weights. -/
theorem two_tiles_sum_one (σ : Fin 2048 → ℝ) (n m₁ m₂ : ℝ) :
    Real.exp (m₁ - m₂) * (Real.exp (n - m₁) * 0 + ∑ k : Fin 1024, Real.exp (σ (tileIdx 0 k) - m₁))
        + ∑ k : Fin 1024, Real.exp (σ (tileIdx 1 k) - m₂)
      = ∑ j : Fin 2048, Real.exp (σ j - m₂) := by
  simpa using two_tiles_sum σ (fun _ => 1) n m₁ m₂

/-- The quotient of the weighted sum by the sum of the weights does not depend on the shift: changing the shift from
    `m` to `M` multiplies numerator and denominator by the same positive number `exp (M − m)`. -/
theorem shift_invariant {N : ℕ} (σ ν : Fin N → ℝ) (m M : ℝ) :
    (∑ j : Fin N, Real.exp (σ j - m) * ν j) * (1 / ∑ j : Fin N, Real.exp (σ j - m))
      = ∑ j : Fin N, Real.exp (σ j - M) * (1 / ∑ k : Fin N, Real.exp (σ k - M)) * ν j := by
  have h : ∀ j, Real.exp (σ j - m) = Real.exp (M - m) * Real.exp (σ j - M) := fun j => by
    rw [← Real.exp_add]
    congr 1
    ring
  have hc : Real.exp (M - m) ≠ 0 := (Real.exp_pos _).ne'
  simp only [h, mul_assoc, ← Finset.mul_sum, one_div, mul_inv]
  rw [Finset.sum_congr rfl fun j _ => mul_left_comm (Real.exp (σ j - M)) _ (ν j), ← Finset.mul_sum]
  field_simp

/-! ### The online form on real scores and values -/

/-- One step from a state of three reals over a tile of real scores and values is again a state of three reals: the
    tile's largest score is attained, the new maximum is a maximum of two reals, and every exponential is the
    exponential of a real difference. -/
theorem step_coe (m l a : ℝ) (σ ν : Fin 1024 → ℝ) :
    ∃ m' : ℝ, step ((m : EReal), (l : EReal), (a : EReal)) (fun k => (σ k : EReal)) (fun k => (ν k : EReal))
      = ((m' : EReal), ((Real.exp (m - m') * l + ∑ k : Fin 1024, Real.exp (σ k - m') : ℝ) : EReal),
          ((Real.exp (m - m') * a + ∑ k : Fin 1024, Real.exp (σ k - m') * ν k : ℝ) : EReal)) := by
  have hne : (Finset.univ : Finset (Fin 1024)).Nonempty := ⟨0, Finset.mem_univ _⟩
  obtain ⟨c₀, -, hM⟩ := Finset.exists_mem_eq_sup (Finset.univ : Finset (Fin 1024)) hne fun k => (σ k : EReal)
  refine ⟨max m (σ c₀), ?_⟩
  have hmax : max (m : EReal) (σ c₀ : EReal) = ((max m (σ c₀) : ℝ) : EReal) :=
    (EReal.coe_strictMono.monotone.map_max).symm
  unfold step
  simp only [hM, hmax, ← EReal.coe_sub, Ideal.exp_coe, ← EReal.coe_mul, ← Cert.Lib.AttnSwap.coe_finset_sum,
    ← EReal.coe_add]

/-- The two-tile online softmax equals the one-pass shifted softmax on real scores and values. -/
theorem online_eq_softmax (s v : Fin 2048 → EReal) (hs : ∀ j, IsReal (s j)) (hv : ∀ j, IsReal (v j)) :
    online s v = ∑ j : Fin 2048, softmaxRow s j * v j := by
  choose σ hσ using hs
  choose ν hν using hv
  obtain ⟨n, hn⟩ := isReal_negBig
  obtain rfl : s = fun j => (σ j : EReal) := funext hσ
  obtain rfl : v = fun j => (ν j : EReal) := funext hν
  -- the state after each tile is three reals
  obtain ⟨m₁, h₁⟩ := step_coe n 0 0 (fun k => σ (tileIdx 0 k)) (fun k => ν (tileIdx 0 k))
  obtain ⟨m₂, h₂⟩ := step_coe m₁ (Real.exp (n - m₁) * 0 + ∑ k : Fin 1024, Real.exp (σ (tileIdx 0 k) - m₁))
    (Real.exp (n - m₁) * 0 + ∑ k : Fin 1024, Real.exp (σ (tileIdx 0 k) - m₁) * ν (tileIdx 0 k))
    (fun k => σ (tileIdx 1 k)) (fun k => ν (tileIdx 1 k))
  have hA : after2 (fun j => (σ j : EReal)) (fun j => (ν j : EReal))
      = ((m₂ : EReal), ((∑ j : Fin 2048, Real.exp (σ j - m₂) : ℝ) : EReal),
          ((∑ j : Fin 2048, Real.exp (σ j - m₂) * ν j : ℝ) : EReal)) := by
    unfold after2 after1
    rw [hn]
    rw [show ((0 : EReal)) = ((0 : ℝ) : EReal) from rfl, h₁, h₂, two_tiles_sum, two_tiles_sum_one]
  -- the sum of the weights is positive
  have hne : (Finset.univ : Finset (Fin 2048)).Nonempty := ⟨0, Finset.mem_univ _⟩
  have hL : 0 < ∑ j : Fin 2048, Real.exp (σ j - m₂) := Finset.sum_pos (fun j _ => Real.exp_pos _) hne
  -- the largest score is attained, so it is a real number
  obtain ⟨c₀, -, hM⟩ := Finset.exists_mem_eq_sup (Finset.univ : Finset (Fin 2048)) hne fun j => (σ j : EReal)
  have hZ : 0 < ∑ k : Fin 2048, Real.exp (σ k - σ c₀) := Finset.sum_pos (fun j _ => Real.exp_pos _) hne
  have hsm : ∀ j, softmaxRow (fun j => (σ j : EReal)) j
      = ((Real.exp (σ j - σ c₀) * (1 / ∑ k : Fin 2048, Real.exp (σ k - σ c₀)) : ℝ) : EReal) := by
    intro j
    unfold softmaxRow
    simp only [hM, ← EReal.coe_sub, Ideal.exp_coe, ← Cert.Lib.AttnSwap.coe_finset_sum]
    rw [Ideal.div_coe hZ.ne', ← EReal.coe_mul]
  unfold online
  rw [hA]
  simp only [hsm, ← EReal.coe_mul, ← Cert.Lib.AttnSwap.coe_finset_sum]
  rw [Ideal.div_coe hL.ne', ← EReal.coe_mul]
  exact congrArg _ (shift_invariant σ ν m₂ (σ c₀))

end Cert.Attn

end
-- ==== Proof.AttnBridge.lean ====
/-
  From the kernel's row to the specification.

  The kernel scales every query entry by one eighth before the dot product; the specification's score scales the dot
  product.  On real entries the two agree (the scale moves out of the sum), so the kernel's masked score row is the
  specification's score row.  Every such score is a real number, so the two-tile online softmax of the row against a
  column of real values is the one-pass shifted softmax weighted sum: the specification's attention at that entry.
-/
import proofs.«151941_j74560632258822_2_alg».proof.Proof.AttnAlgebra

noncomputable section

namespace Cert.Attn

open Idealize.ShloMosaic Idealize.ShloMosaic.ValueIdx
open Cert.Lib.AttnSwap (IsReal)
open Cert.Lib.SoftmaxRows (softmaxRow)
open scoped BigOperators

/-- The kernel's masked score row — the query scaled before the dot product — is the specification's score row, on
    real queries and keys. -/
theorem kernel_score_row (Q K : SQ.Idx → EReal) (M : SM.Idx → BitVec 32) (hQ : ∀ i, IsReal (Q i)) (hK : ∀ i, IsReal (K i))
    (b : Fin 2) (h : Fin 16) (i : Fin 2048) :
    (fun j : Fin 2048 => Scalar.select (IntOp.cmpi .eq (M (ix4 b h i j)) 0#32) negBig
        (∑ d' : Fin 64, (Q (ix4 b h i d') * scale) * K (ix4 b h j d')))
      = fun j => score Q K M b h i j := by
  funext j
  exact congrArg (Scalar.select (IntOp.cmpi .eq (M (ix4 b h i j)) 0#32) negBig)
    (dot_scale (fun d' => Q (ix4 b h i d')) (fun d' => K (ix4 b h j d')) (fun _ => hQ _) (fun _ => hK _))

/-- The kernel's online softmax of its masked score row against a value column is the specification's attention at
    that entry, on real queries, keys and values. -/
theorem kernel_row_eq (Q K V : SQ.Idx → EReal) (M : SM.Idx → BitVec 32) (hQ : ∀ i, IsReal (Q i)) (hK : ∀ i, IsReal (K i))
    (hV : ∀ i, IsReal (V i)) (b : Fin 2) (h : Fin 16) (i : Fin 2048) (d : Fin 64) :
    online (fun j => Scalar.select (IntOp.cmpi .eq (M (ix4 b h i j)) 0#32) negBig
        (∑ d' : Fin 64, (Q (ix4 b h i d') * scale) * K (ix4 b h j d'))) (fun j => V (ix4 b h j d))
      = attn Q K V M (ix4 b h i d) := by
  rw [kernel_score_row Q K M hQ hK b h i,
    online_eq_softmax _ _ (fun j => isReal_score Q K M hQ hK b h i j) (fun j => hV _)]
  rfl

end Cert.Attn

end
-- ==== Proof.KOut.lean ====
import proofs.«151941_j74560632258822_2_alg».proof.Proof.Gen.KernelIdeal.Frame
import proofs.«151941_j74560632258822_2_alg».proof.Proof.KPieces
import proofs.«151941_j74560632258822_2_alg».proof.Proof.KPay
import proofs.«151941_j74560632258822_2_alg».proof.Proof.KBlocks
import proofs.«151941_j74560632258822_2_alg».proof.Proof.AttnBridge

noncomputable section

open Idealize.ShloMosaic Idealize.ShloMosaic.TcCoe Idealize.SL.Sem Idealize.ShloMosaic.ValueIdx
open scoped BigOperators

/-! What the output block holds after a point that visits the second key tile: entry `(r, d)` is the online form's
    result for query row `r` of the point's query tile — the first step over the first key tile's scores and values (from
    the point before), the second over the second tile's — and hence, for real inputs, softmax attention at that entry. -/
namespace Cert.KernelIdeal.KOut

open Cert.KernelIdeal Cert.KernelIdeal.Gen Cert.KernelIdeal.KVal Cert.KernelIdeal.KBlk

/-- The two tiles' updates, composed: the output block's entry is the online form over any score row and value column
    that restrict to the two tiles' rows and columns. -/
theorem out_online (y0 y1 y2 x0 x1 x2 : Vec Ideal S1x1024x64 .f32) (y3 x3 : Vec Ideal S1x1024x1024 .i32)
    (s v : Fin 2048 → EReal) (r : Fin 1024) (d : Fin 64)
    (hs0 : ∀ k, tsc y0 y1 y3 r k = s (Cert.Attn.tileIdx 0 k)) (hs1 : ∀ k, tsc x0 x1 x3 r k = s (Cert.Attn.tileIdx 1 k))
    (hv0 : ∀ k, y2 (ix3 (0 : Fin 1) k d) = v (Cert.Attn.tileIdx 0 k))
    (hv1 : ∀ k, x2 (ix3 (0 : Fin 1) k d) = v (Cert.Attn.tileIdx 1 k)) :
    k0_pay4 (F := Ideal)
      (k0_pay2 (k0_pay8 x2) (k0_pay11 x0 x1 x3 (k0_pay3 (k0_pay10 y0 y1 y3 (k0_pay5 (F := Ideal)))))
        (k0_pay12 x0 x1 x3 (k0_pay3 (k0_pay10 y0 y1 y3 (k0_pay5 (F := Ideal)))))
        (k0_pay2 (k0_pay8 y2) (k0_pay11 y0 y1 y3 (k0_pay5 (F := Ideal))) (k0_pay12 y0 y1 y3 (k0_pay5 (F := Ideal))) (k0_pay7 (F := Ideal))))
      (k0_pay1 (k0_pay12 x0 x1 x3 (k0_pay3 (k0_pay10 y0 y1 y3 (k0_pay5 (F := Ideal)))))
        (k0_pay13 x0 x1 x3 (k0_pay3 (k0_pay10 y0 y1 y3 (k0_pay5 (F := Ideal))))
          (k0_pay1 (k0_pay12 y0 y1 y3 (k0_pay5 (F := Ideal))) (k0_pay13 y0 y1 y3 (k0_pay5 (F := Ideal)) (k0_pay6 (F := Ideal))))))
      (ix3 (0 : Fin 1) r d)
      = Cert.Attn.online s v := by
  have hA := tile_step y0 y1 y2 y3 (k0_pay5 (F := Ideal)) (k0_pay6 (F := Ideal)) (k0_pay7 (F := Ideal)) r d
  rw [pay5_at, pay6_at, pay7_at] at hA
  have hB := tile_step x0 x1 x2 x3 (k0_pay3 (F := Ideal) (k0_pay10 y0 y1 y3 (k0_pay5 (F := Ideal))))
    (k0_pay1 (F := Ideal) (k0_pay12 y0 y1 y3 (k0_pay5 (F := Ideal))) (k0_pay13 y0 y1 y3 (k0_pay5 (F := Ideal)) (k0_pay6 (F := Ideal))))
    (k0_pay2 (F := Ideal) (k0_pay8 y2) (k0_pay11 y0 y1 y3 (k0_pay5 (F := Ideal))) (k0_pay12 y0 y1 y3 (k0_pay5 (F := Ideal))) (k0_pay7 (F := Ideal))) r d
  rw [hA] at hB
  have e0 : tsc y0 y1 y3 r = fun k => s (Cert.Attn.tileIdx 0 k) := funext hs0
  have e1 : tsc x0 x1 x3 r = fun k => s (Cert.Attn.tileIdx 1 k) := funext hs1
  have f0 : (fun k : Fin 1024 => y2 (ix3 (0 : Fin 1) k d)) = fun k => v (Cert.Attn.tileIdx 0 k) := funext hv0
  have f1 : (fun k : Fin 1024 => x2 (ix3 (0 : Fin 1) k d)) = fun k => v (Cert.Attn.tileIdx 1 k) := funext hv1
  rw [e0, e1, f0, f1] at hB
  rw [pay4_at]
  unfold Cert.Attn.online Cert.Attn.after2 Cert.Attn.after1
  rw [← hB]

variable (m : (ℓ : Loc nD τ sig) → Buf (Elt Ideal) ℓ)

/-- The query, key, value and mask blocks at a point. -/
def qb (c : Dev nD) (t : Fin cfg0.N) : Vec Ideal S1x1024x64 .f32 := iblk m c 0 t
def kb (c : Dev nD) (t : Fin cfg0.N) : Vec Ideal S1x1024x64 .f32 := iblk m c 1 t
def vb (c : Dev nD) (t : Fin cfg0.N) : Vec Ideal S1x1024x64 .f32 := iblk m c 2 t
def mb (c : Dev nD) (t : Fin cfg0.N) : Vec Ideal S1x1024x1024 .i32 := iblk m c 3 t

/-- The arguments as arrays of extended reals, and the mask as an array of words. -/
def argQ (c : Dev nD) : Cert.Attn.SQ.Idx → EReal := m ((c : Thread nD τ).loc main_arg0)
def argK (c : Dev nD) : Cert.Attn.SQ.Idx → EReal := m ((c : Thread nD τ).loc main_arg1)
def argV (c : Dev nD) : Cert.Attn.SQ.Idx → EReal := m ((c : Thread nD τ).loc main_arg2)
def argM (c : Dev nD) : Cert.Attn.SM.Idx → BitVec 32 := m ((c : Thread nD τ).loc main_arg3)

set_option maxHeartbeats 1000000 in
/-- After a point that visits the first key tile the three carried buffers hold that tile's update of the initial
    constants. -/
theorem scr_A_t (c : Dev nD) (t : Fin cfg0.N) (h0 : t.val % 2 = 0) :
    (outsAt0 m c t.val t.isLt).2
      = (k0_pay3 (k0_pay10 (qb m c t) (kb m c t) (mb m c t) (k0_pay5 (F := Ideal))),
         k0_pay1 (k0_pay12 (qb m c t) (kb m c t) (mb m c t) (k0_pay5 (F := Ideal)))
           (k0_pay13 (qb m c t) (kb m c t) (mb m c t) (k0_pay5 (F := Ideal)) (k0_pay6 (F := Ideal))),
         k0_pay2 (k0_pay8 (vb m c t)) (k0_pay11 (qb m c t) (kb m c t) (mb m c t) (k0_pay5 (F := Ideal)))
           (k0_pay12 (qb m c t) (kb m c t) (mb m c t) (k0_pay5 (F := Ideal))) (k0_pay7 (F := Ideal))) := by
  have h1 : ¬t.val % 2 = 1 := by omega
  rw [outsAt0_A m c t h0 h1]
  dsimp only
  exact congrArg₂ Prod.mk
    (sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
    (congrArg₂ Prod.mk
      (sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
      (sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)))

/-- The same, with the point given by its position. -/
theorem scr_A (c : Dev nD) (n : ℕ) (hn : n < cfg0.N) (h0 : n % 2 = 0) :
    (outsAt0 m c n hn).2
      = (k0_pay3 (k0_pay10 (qb m c ⟨n, hn⟩) (kb m c ⟨n, hn⟩) (mb m c ⟨n, hn⟩) (k0_pay5 (F := Ideal))),
         k0_pay1 (k0_pay12 (qb m c ⟨n, hn⟩) (kb m c ⟨n, hn⟩) (mb m c ⟨n, hn⟩) (k0_pay5 (F := Ideal)))
           (k0_pay13 (qb m c ⟨n, hn⟩) (kb m c ⟨n, hn⟩) (mb m c ⟨n, hn⟩) (k0_pay5 (F := Ideal)) (k0_pay6 (F := Ideal))),
         k0_pay2 (k0_pay8 (vb m c ⟨n, hn⟩)) (k0_pay11 (qb m c ⟨n, hn⟩) (kb m c ⟨n, hn⟩) (mb m c ⟨n, hn⟩) (k0_pay5 (F := Ideal)))
           (k0_pay12 (qb m c ⟨n, hn⟩) (kb m c ⟨n, hn⟩) (mb m c ⟨n, hn⟩) (k0_pay5 (F := Ideal))) (k0_pay7 (F := Ideal))) :=
  scr_A_t m c ⟨n, hn⟩ h0

set_option maxHeartbeats 1000000 in
/-- After a point that visits the second key tile the output block holds the final weighted sum over the final sum,
    computed from what the point before left. -/
theorem out_B (c : Dev nD) (t : Fin cfg0.N) (h1 : t.val % 2 = 1) :
    (outsAt0 m c t.val t.isLt).1
      = k0_pay4 (F := Ideal) (k0_pay2 (k0_pay8 (vb m c t))
            (k0_pay11 (qb m c t) (kb m c t) (mb m c t) (outsAt0 m c (t.val - 1) (Nat.lt_of_le_of_lt (Nat.sub_le _ _) t.isLt)).2.1)
            (k0_pay12 (qb m c t) (kb m c t) (mb m c t) (outsAt0 m c (t.val - 1) (Nat.lt_of_le_of_lt (Nat.sub_le _ _) t.isLt)).2.1)
            (outsAt0 m c (t.val - 1) (Nat.lt_of_le_of_lt (Nat.sub_le _ _) t.isLt)).2.2.2)
          (k0_pay1 (k0_pay12 (qb m c t) (kb m c t) (mb m c t) (outsAt0 m c (t.val - 1) (Nat.lt_of_le_of_lt (Nat.sub_le _ _) t.isLt)).2.1)
            (k0_pay13 (qb m c t) (kb m c t) (mb m c t) (outsAt0 m c (t.val - 1) (Nat.lt_of_le_of_lt (Nat.sub_le _ _) t.isLt)).2.1 (outsAt0 m c (t.val - 1) (Nat.lt_of_le_of_lt (Nat.sub_le _ _) t.isLt)).2.2.1)) := by
  have h0 : ¬t.val % 2 = 0 := by omega
  rw [outsAt0_B m c t h0 h1]
  dsimp only
  exact oB4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The kernel's masked score row for batch `b`, head `h`, query row `i`: the query row scaled by one eighth against
    each key row. -/
def krow (c : Dev nD) (b : Fin 2) (h : Fin 16) (i : Fin 2048) : Fin 2048 → EReal :=
  fun j => Scalar.select (IntOp.cmpi .eq (argM m c (ix4 b h i j)) 0#32) Cert.Attn.negBig
    (∑ d' : Fin 64, (argQ m c (ix4 b h i d') * Cert.Attn.scale) * argK m c (ix4 b h j d'))

/-- A point's masked score tile is the kernel's score rows of its query tile restricted to its key tile. -/
theorem tsc_iblk (c : Dev nD) (tt : Fin cfg0.N) (r k : Fin 1024) :
    tsc (qb m c tt) (kb m c tt) (mb m c tt) r k
      = krow m c (bOf tt) (hOf tt) (Cert.Attn.tileIdx (qiOf tt) r) (Cert.Attn.tileIdx (kiOf tt) k) := by
  unfold tsc krow qb kb mb
  rw [iblk3_at m c tt r k]
  refine congrArg (Scalar.select _ _) (Finset.sum_congr rfl fun d _ => ?_)
  rw [iblk0_at m c tt r d, iblk1_at m c tt k d]
  rfl

theorem vb_at (c : Dev nD) (tt : Fin cfg0.N) (k : Fin 1024) (d : Fin 64) :
    vb m c tt (ix3 (0 : Fin 1) k d) = argV m c (ix4 (bOf tt) (hOf tt) (Cert.Attn.tileIdx (kiOf tt) k) d) := by
  unfold vb
  rw [iblk2_at m c tt k d]
  rfl

/-- The output block after a point that visits the second key tile, entry by entry: the online form over the kernel's
    score row and the value column. -/
theorem out_at (c : Dev nD) (t : Fin cfg0.N) (h1 : t.val % 2 = 1) (r : Fin 1024) (d : Fin 64) :
    ((outsAt0 m c t.val t.isLt).1 : Vec Ideal S1x1024x64 .f32) (ix3 (0 : Fin 1) r d)
      = Cert.Attn.online (krow m c (bOf t) (hOf t) (Cert.Attn.tileIdx (qiOf t) r))
          (fun j => argV m c (ix4 (bOf t) (hOf t) j d)) := by
  have hlt := lt128 t
  have hn : t.val - 1 < cfg0.N := Nat.lt_of_le_of_lt (Nat.sub_le _ _) t.isLt
  have hA := scr_A m c (t.val - 1) hn (by omega)
  have eb : bOf (⟨t.val - 1, hn⟩ : Fin cfg0.N) = bOf t := Fin.ext (by show (t.val - 1) / 64 = t.val / 64; omega)
  have eh : hOf (⟨t.val - 1, hn⟩ : Fin cfg0.N) = hOf t := Fin.ext (by show (t.val - 1) / 4 % 16 = t.val / 4 % 16; omega)
  have eq : qiOf (⟨t.val - 1, hn⟩ : Fin cfg0.N) = qiOf t := Fin.ext (by show (t.val - 1) / 2 % 2 = t.val / 2 % 2; omega)
  have ek0 : kiOf (⟨t.val - 1, hn⟩ : Fin cfg0.N) = 0 := Fin.ext (by show (t.val - 1) % 2 = 0; omega)
  have ek1 : kiOf t = 1 := Fin.ext (by show t.val % 2 = 1; exact h1)
  rw [out_B m c t h1, congrArg Prod.fst hA, congrArg (fun p => p.2.1) hA, congrArg (fun p => p.2.2) hA]
  refine out_online (qb m c ⟨t.val - 1, hn⟩) (kb m c ⟨t.val - 1, hn⟩) (vb m c ⟨t.val - 1, hn⟩)
    (qb m c t) (kb m c t) (vb m c t) (mb m c ⟨t.val - 1, hn⟩) (mb m c t) _ _ r d ?_ ?_ ?_ ?_
  · intro k; rw [tsc_iblk, eb, eh, eq, ek0]
  · intro k; rw [tsc_iblk, ek1]
  · intro k; rw [vb_at, eb, eh, ek0]
  · intro k; rw [vb_at, ek1]

end Cert.KernelIdeal.KOut

end
-- ==== Proof.KTail.lean ====
/-
  The output side of the kernel, for any contents of the blocks.

  The kernel's output array has shape [32, 2048, 64].  The grid has 32 · 2 · 2 points; point `t` has coordinates
  (bh, qi, kv) with `t = (bh · 2 + qi) · 2 + kv`, its output block is rows `1024 · qi … 1024 · qi + 1023` of slab `bh`,
  and the block is written back exactly at the points with `kv = 1`.  So every index (bh, row, d) of the array lies in the
  block of the writing point `(bh · 2 + row / 1024) · 2 + 1`: if every written block is the matching block of one array
  `R`, the output array ends at `R`.  After the region one reshape reads the array as [2, 16, 2048, 64], entry
  (b, h, i, d) being entry (16 · b + h, i, d); the run's post is restated with the result at that reshape of `R` and the
  four arguments unchanged.
-/
import proofs.«151941_j74560632258822_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.KTail

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.Tactic

variable {F : FTy → Type} [FloatOps F]
variable (m : (ℓ : Loc nD τ sig) → Buf (Elt F) ℓ) (ρ : Dev nD → PrngReg)

/-! ### The reshape after the region, at an index -/

/-- The [32, 2048, 64] array read as [2, 16, 2048, 64]: entry (b, h, i, d) is entry (16 · b + h, i, d). -/
theorem reshape_at (X : S32x2048x64.Idx → Elt F .f32) (b : Fin 2) (h : Fin 16) (i : Fin 2048) (d : Fin 64) :
    shapeCast S2x16x2048x64 X shapeCasts_S32x2048x64_S2x16x2048x64 (ix4 b h i d)
      = X (ix3 ⟨b.val * 16 + h.val, by have := b.isLt; have := h.isLt; omega⟩ i d) := by
  refine shapeCast_apply X _ _ _ ?_
  rw [Shape.rowMajor_val_three, Shape.rowMajor_val_four]
  rfl

/-! ### The output window's blocks tile the output array -/

/-- The output window's block index at a point, decided over the grid: slab `t / 4`, row block `(t / 2) % 2`, lane
    block 0. -/
theorem idx_facts4 : ∀ t : Fin cfg0.N, win0_4.index t (0 : Fin 3) = t.val / 4
    ∧ win0_4.index t (1 : Fin 3) = (t.val / 2) % 2 ∧ win0_4.index t (2 : Fin 3) = 0 :=
  (by decide +kernel : ∀ t : Fin grid0.N, _)

/-- An index of the array is in point `t`'s block iff each coordinate is in the block's range on its axis. -/
theorem mem_blk4 (t : Fin cfg0.N) (i : S32x2048x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v4).slice (win0_4.rect t)).set ↔ _
  rw [View.set_slice_whole, Rect.mem_set_unit]
  exact Iff.rfl

/-- Every index of the output array is in the block of a point that writes its block back. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  have hN : cfg0.N = 128 := N_0
  obtain ⟨t, ht⟩ : ∃ t : Fin cfg0.N, t.val = ((i 0).val * 2 + (i 1).val / 1024) * 2 + 1 :=
    ⟨⟨((i 0).val * 2 + (i 1).val / 1024) * 2 + 1, by omega⟩, rfl⟩
  refine ⟨t, (flush0_4 t).mpr (by omega), ?_⟩
  rw [mem_blk4]
  obtain ⟨e0, e1, e2⟩ := idx_facts4 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- If every written block is the matching block of `R`, the output array ends at `R`. -/
theorem final4 (c : Dev nD) (R : S32x2048x64.Idx → Elt F .f32)
    (hfl : ∀ t : Fin cfg0.N, (cfg0.win 4).flush t = true →
      (dats m 0 c).flushed 4 t = ((cfg0.win 4).blk t).view.read (Elt F) R) :
    (dats m 0 c).arrAt 4 cfg0.N = R :=
  (dats m 0 c).arrAt_eq_of_cover 4 R hfl cover4

/-! ### The run, with the result at the reshape of the output array -/

/-- The result buffer after the reshape that follows the region: the reshape of the output array as the region leaves
    it. -/
theorem tail_v5 (c : Dev nD) :
    Pipeline.afterTail₀ cfgs (dats m) 0 (V0 m) [hostOps1] c main_v5
      = shapeCast S2x16x2048x64 ((dats m 0 c).arrAt 4 cfg0.N) shapeCasts_S32x2048x64_S2x16x2048x64 := by
  unfold Pipeline.afterTail₀
  show StableHlo.after hostOps1 _ (Proc.devRef .tc main_v5) = _
  after_results
  exact congrArg (fun X => shapeCast S2x16x2048x64 X shapeCasts_S32x2048x64_S2x16x2048x64)
    (Pipeline.withArrays_arr spec0 launch0.win.arr_inj c (V0 m c) (fun w => (dats m 0 c).arrAt w cfg0.N) 4)

/-- The run of the kernel's program: if on every core the output array ends at `R c`, the result ends at the reshape of
    `R c` and the four arguments end unchanged. -/
theorem run_of (R : Dev nD → S32x2048x64.Idx → Elt F .f32)
    (hfinal : ∀ c, (dats m 0 c).arrAt 4 cfg0.N = R c) :
    θ_run defs (onTc (τ := τ) (main (F := F))) ⟨m, fun _ => 0, ρ⟩ (fun r => ∀ c : Dev nD,
      r.2.mem ((c.tc : Thread nD τ).loc main_v5)
        = shapeCast S2x16x2048x64 (R c) shapeCasts_S32x2048x64_S2x16x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans
        ((tail_v5 m c).trans (congrArg (fun X => shapeCast S2x16x2048x64 X shapeCasts_S32x2048x64_S2x16x2048x64) (hfinal c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KTail

end
-- ==== Proof.KFlush.lean ====
/-
  What a writing point writes back to the output array, from a pointwise hypothesis.

  Point `t` of the grid has coordinates (bh, qi, kv) = (t / 4, (t / 2) % 2, t % 2).  At the points with `kv = 1` the
  output block [1, 1024, 64] is written back to rows `1024 · qi + r` of slab `bh`.  If at each such point the block's
  entry (0, r, d) is `R (bh, 1024 · qi + r, d)`, then what the point writes back is the matching block of `R`.
-/
import proofs.«151941_j74560632258822_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«151941_j74560632258822_2_alg».proof.Proof.AttnSpec

set_option maxRecDepth 16384

noncomputable section

namespace Cert.KernelIdeal.KFlush

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.Tactic

variable {F : FTy → Type} [FloatOps F]
variable (m : (ℓ : Loc nD τ sig) → Buf (Elt F) ℓ) (ρ : Dev nD → PrngReg)

/-- The output window's block index at a point, decided over the grid: slab `t / 4`, row block `(t / 2) % 2`, lane
    block 0. -/
theorem idx_out : ∀ t : Fin cfg0.N, win0_4.index t (0 : Fin 3) = t.val / 4
    ∧ win0_4.index t (1 : Fin 3) = (t.val / 2) % 2 ∧ win0_4.index t (2 : Fin 3) = 0 :=
  (by decide +kernel : ∀ t : Fin grid0.N, _)

/-- If at every writing point the output block's entry (0, r, d) is `R` at (slab, 1024 · row block + r, d), then what
    the point writes back is the matching block of `R`.  The window is not cut here (every block lies inside the array),
    so what is written back is the whole block. -/
theorem flushed4_of (c : Dev nD) (R : S32x2048x64.Idx → Elt F .f32)
    (hpt : ∀ (t : Fin cfg0.N), t.val % 2 = 1 → ∀ (r : Fin 1024) (d : Fin 64),
      ((outsAt0 m c t.val t.isLt).1 : Vec F S1x1024x64 .f32) (ix3 (0 : Fin 1) r d)
        = R (ix3 ⟨t.val / 4, by have := lt_of_lt_of_eq t.isLt (show cfg0.N = 128 from N_0); omega⟩
              (Cert.Attn.tileIdx ⟨t.val / 2 % 2, by omega⟩ r) d)) :
    ∀ t : Fin cfg0.N, (cfg0.win 4).flush t = true →
      (dats m 0 c).flushed 4 t = ((cfg0.win 4).blk t).view.read (Elt F) R := by
  intro t hf
  have h1 : t.val % 2 = 1 := (flush0_4 t).mp hf
  show (cfg0.win 4).cut (grid0.coords t) ((dats m 0 c).after 4 t) = _
  rw [after0_4]
  funext y
  rw [View.read_apply]
  have hy0 : (y 0).val < 1 := (y 0).isLt
  have hy1 : (y 1).val < 1024 := (y 1).isLt
  have hy2 : (y 2).val < 64 := (y 2).isLt
  have hN : t.val < 128 := lt_of_lt_of_eq t.isLt (show cfg0.N = 128 from N_0)
  obtain ⟨e0, e1, e2⟩ := idx_out t
  show (outsAt0 m c t.val t.isLt).1 ((cfg0.win 4).xinj (grid0.coords t) y) = R (((cfg0.win 4).blk t).view.emb y)
  -- the block's own index: the leading coordinate ranges over one value
  have hL : (cfg0.win 4).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  -- the array's index the block's index lands on: block index times block size plus the coordinate inside the block
  have hR : ((cfg0.win 4).blk t).view.emb y
      = ix3 ⟨t.val / 4, by omega⟩ (Cert.Attn.tileIdx ⟨t.val / 2 % 2, by omega⟩ ⟨(y 1).val, hy1⟩) ⟨(y 2).val, hy2⟩ := by
    funext a; apply Fin.ext
    match a with
    | ⟨0, _⟩ => show win0_4.index t (0 : Fin 3) * 1 + 1 * (y 0).val = t.val / 4; omega
    | ⟨1, _⟩ => show win0_4.index t (1 : Fin 3) * 1024 + 1 * (y 1).val = (t.val / 2 % 2) * 1024 + (y 1).val; omega
    | ⟨2, _⟩ => show win0_4.index t (2 : Fin 3) * 64 + 1 * (y 2).val = (y 2).val; omega
  exact (congrArg (outsAt0 m c t.val t.isLt).1 hL).trans
    ((hpt t h1 ⟨(y 1).val, hy1⟩ ⟨(y 2).val, hy2⟩).trans (congrArg R hR.symm))

end Cert.KernelIdeal.KFlush

end
-- ==== Proof.KRun.lean ====
import proofs.«151941_j74560632258822_2_alg».proof.Proof.KOut
import proofs.«151941_j74560632258822_2_alg».proof.Proof.KTail
import proofs.«151941_j74560632258822_2_alg».proof.Proof.KFlush

noncomputable section

open Idealize.ShloMosaic Idealize.ShloMosaic.TcCoe Idealize.SL.Sem Idealize.ShloMosaic.ValueIdx
open scoped BigOperators

/-! The kernel's run on the extended reals: the [32, 2048, 64] output array ends, entry `(16 b + h, i, d)`, at the online
    form over the kernel's score row `(b, h, i)` and value column `d`; the result is its reshape to [2, 16, 2048, 64]; and
    when queries, keys and values are real numbers that is softmax attention. -/
namespace Cert.KernelIdeal.KRun

open Cert.KernelIdeal Cert.KernelIdeal.Gen Cert.KernelIdeal.KBlk Cert.KernelIdeal.KOut

variable (m : (ℓ : Loc nD τ sig) → Buf (Elt Ideal) ℓ) (ρ : Dev nD → PrngReg)

/-- The batch of a batch-head index. -/
def bh_b (x : Fin 32) : Fin 2 := ⟨x.val / 16, by have := x.isLt; omega⟩
/-- The head of a batch-head index. -/
def bh_h (x : Fin 32) : Fin 16 := ⟨x.val % 16, by omega⟩

/-- What the output array ends at. -/
def outArr (c : Dev nD) : S32x2048x64.Idx → EReal := fun i =>
  Cert.Attn.online (krow m c (bh_b (i 0)) (bh_h (i 0)) (i 1))
    (fun j => argV m c (ix4 (bh_b (i 0)) (bh_h (i 0)) j (i 2)))

theorem out_pt (c : Dev nD) (t : Fin cfg0.N) (h1 : t.val % 2 = 1) (r : Fin 1024) (d : Fin 64) :
    ((outsAt0 m c t.val t.isLt).1 : Vec Ideal S1x1024x64 .f32) (ix3 (0 : Fin 1) r d)
      = outArr m c (ix3 ⟨t.val / 4, by have := lt_of_lt_of_eq t.isLt (show cfg0.N = 128 from N_0); omega⟩
          (Cert.Attn.tileIdx ⟨t.val / 2 % 2, by omega⟩ r) d) := by
  refine (out_at m c t h1 r d).trans ?_
  have hlt := lt128 t
  have eb : bOf t = bh_b (⟨t.val / 4, by omega⟩ : Fin 32) := Fin.ext (by show t.val / 64 = t.val / 4 / 16; omega)
  have eh : hOf t = bh_h (⟨t.val / 4, by omega⟩ : Fin 32) := rfl
  have eq : qiOf t = (⟨t.val / 2 % 2, by omega⟩ : Fin 2) := rfl
  rw [eb, eh, eq]
  rfl

/-- The output array after the run. -/
theorem final (c : Dev nD) : (dats m 0 c).arrAt 4 cfg0.N = outArr m c :=
  Cert.KernelIdeal.KTail.final4 m c (outArr m c) (Cert.KernelIdeal.KFlush.flushed4_of m c (outArr m c) (out_pt m c))

/-- For real queries, keys and values the reshaped output array is softmax attention of the arguments. -/
theorem result_eq (c : Dev nD)
    (hQ : ∀ i, Cert.Lib.AttnSwap.IsReal (argQ m c i)) (hK : ∀ i, Cert.Lib.AttnSwap.IsReal (argK m c i))
    (hV : ∀ i, Cert.Lib.AttnSwap.IsReal (argV m c i)) :
    shapeCast S2x16x2048x64 (outArr m c) shapeCasts_S32x2048x64_S2x16x2048x64
      = Cert.Attn.attn (argQ m c) (argK m c) (argV m c) (argM m c) := by
  funext idx
  obtain ⟨b, h, i, d, rfl⟩ : ∃ (b : Fin 2) (h : Fin 16) (i : Fin 2048) (d : Fin 64), idx = ix4 b h i d :=
    ⟨idx 0, idx 1, idx 2, idx 3, eq_ix4 idx⟩
  refine (Cert.KernelIdeal.KTail.reshape_at (F := Ideal) (outArr m c) b h i d).trans ?_
  have eb : bh_b (⟨b.val * 16 + h.val, by have := b.isLt; have := h.isLt; omega⟩ : Fin 32) = b :=
    Fin.ext (by show (b.val * 16 + h.val) / 16 = b.val; have := h.isLt; omega)
  have eh : bh_h (⟨b.val * 16 + h.val, by have := b.isLt; have := h.isLt; omega⟩ : Fin 32) = h :=
    Fin.ext (by show (b.val * 16 + h.val) % 16 = h.val; have := h.isLt; omega)
  show Cert.Attn.online (krow m c (bh_b ⟨b.val * 16 + h.val, _⟩) (bh_h ⟨b.val * 16 + h.val, _⟩) i)
    (fun j => argV m c (ix4 (bh_b ⟨b.val * 16 + h.val, _⟩) (bh_h ⟨b.val * 16 + h.val, _⟩) j d)) = _
  rw [eb, eh]
  exact Cert.Attn.kernel_row_eq (argQ m c) (argK m c) (argV m c) (argM m c) hQ hK hV b h i d

/-- The kernel's run: the result at the reshaped output array, the arguments unchanged. -/
theorem run : θ_run defs (onTc (τ := τ) (main (F := Ideal))) ⟨m, fun _ => 0, ρ⟩ (fun r => ∀ c : Dev nD,
      r.2.mem ((c.tc : Thread nD τ).loc main_v5)
        = shapeCast S2x16x2048x64 (outArr m c) shapeCasts_S32x2048x64_S2x16x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.KTail.run_of m ρ (outArr m) (final m)

end Cert.KernelIdeal.KRun

end
-- ==== Proof.lean ====
/-
  Masked scaled dot-product attention, a tiled online-softmax kernel against the plain softmax formula.

  Queries, keys and values are [2, 16, 2048, 64] arrays, the mask a [2, 16, 2048, 2048] integer array.  For batch `b`,
  head `h` and query row `i` the score against key row `j` is one eighth of the dot product of the two rows, replaced by a
  large negative constant where the mask is zero; the result row is the softmax of the score row applied to the value rows.

  The reference computes exactly that: all scores, the row maxima, the shifted exponentials, their row sums, the
  quotients, and the product with the values.

  The kernel flattens batch and head to 32 slabs and walks a 32 × 2 × 2 grid: slab, query tile of 1024 rows, key tile of
  1024 rows, the key tile innermost.  It scales the query rows by one eighth before the dot products and keeps, per query
  row, a running maximum `m` (started at the large negative constant), a running sum `l` of exponentials shifted by `m`
  and a running weighted sum `acc` of value rows.  A key tile with scores `s` and values `v` replaces them by
  `m' = max m (max s)`, `exp (m − m') · l + ∑ exp (s − m')` and `exp (m − m') · acc + ∑ exp (s − m') · v`; after the
  second key tile the output block is `acc / l`, and the result is the output array reshaped to [2, 16, 2048, 64].

  On the extended reals the two agree when queries, keys and values are real numbers, which is the precondition: the
  scores are then real, scaling before or after the dot product is distributivity, every running maximum is real, every
  exponential a positive real, `exp (m − m') · exp (s − m) = exp (s − m')` folds the first tile's terms into the second's
  shift, and a softmax does not depend on the real number it is shifted by, so `acc / l` is the weighted sum of value rows
  over the sum of weights — the softmax row applied to the values.

  The three frame claims are the generated frames (the reference's is its generated run with the result dropped); the
  idealization rewrote nothing, so `preserves` is trivial; the modules under Proof/ carry the value argument: the
  specification and the online form (AttnSpec), the algebra (AttnAlgebra, AttnBridge), the reference read stage by stage
  (RefSide), real inputs from the precondition (Finite), what each control case of the kernel body leaves (KPieces), its
  arithmetic entry by entry (KPay), the input blocks (KBlocks), the output block after a point (KOut), the blocks tiling
  the output array and the final reshape (KFlush, KTail), and the kernel's run (KRun).
-/
import proofs.«151941_j74560632258822_2_alg».proof.Defs
import proofs.«151941_j74560632258822_2_alg».proof.Proof.Gen.Kernel
import proofs.«151941_j74560632258822_2_alg».proof.Proof.Gen.Kernel.Skeleton
import proofs.«151941_j74560632258822_2_alg».proof.Proof.Gen.Kernel.Launch
import proofs.«151941_j74560632258822_2_alg».proof.Proof.Gen.Kernel.Points
import proofs.«151941_j74560632258822_2_alg».proof.Proof.Gen.Kernel.Frame
import proofs.«151941_j74560632258822_2_alg».proof.Proof.Gen.KernelIdeal
import proofs.«151941_j74560632258822_2_alg».proof.Proof.Gen.KernelIdeal.Skeleton
import proofs.«151941_j74560632258822_2_alg».proof.Proof.Gen.KernelIdeal.Launch
import proofs.«151941_j74560632258822_2_alg».proof.Proof.Gen.KernelIdeal.Points
import proofs.«151941_j74560632258822_2_alg».proof.Proof.Gen.KernelIdeal.Frame
import proofs.«151941_j74560632258822_2_alg».proof.Proof.Gen.ReferenceIdeal
import proofs.«151941_j74560632258822_2_alg».proof.Proof.Gen.ReferenceIdeal.Run
import proofs.«151941_j74560632258822_2_alg».proof.Proof.Gen.ReferenceIdeal.Read
import proofs.«151941_j74560632258822_2_alg».proof.Proof.Gen.Pre_finite_inputs
import proofs.«151941_j74560632258822_2_alg».proof.Proof.RefSide
import proofs.«151941_j74560632258822_2_alg».proof.Proof.Finite
import proofs.«151941_j74560632258822_2_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame is its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Both programs end at softmax attention of the arguments: the kernel because its online form is softmax attention on
    real inputs, the reference because it is that formula stage by stage. -/
theorem algebraic : Cert.algebraic_KernelIdeal_ReferenceIdeal := by
  intro m ρ m' ρ' hpre hagree
  refine ⟨fun c => Cert.Attn.attn (Cert.KernelIdeal.KOut.argQ m c) (Cert.KernelIdeal.KOut.argK m c)
    (Cert.KernelIdeal.KOut.argV m c) (Cert.KernelIdeal.KOut.argM m c), ?_, ?_⟩
  · refine (θ_run Cert.KernelIdeal.defs _ _).mono (fun r h c => ⟨(h c).1.trans ?_, (h c).2⟩)
      (Cert.KernelIdeal.KRun.run m ρ)
    obtain ⟨hQ, hK, hV⟩ := Cert.Finite.real_of_pre _ _ _ _ (hpre c)
    exact Cert.KernelIdeal.KRun.result_eq m c hQ hK hV
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.ReferenceIdeal.RefValue.ref_eq, (hagree c).1, (hagree c).2.1,
      (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
